-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x2 : Shape := ⟨2, ![800000, 2]⟩
abbrev S50001x128 : Shape := ⟨2, ![50001, 128]⟩
abbrev S128x128 : Shape := ⟨2, ![128, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S50001x128 : S_.BroadcastsInDim S50001x128 (![] : Fin 0 → Fin S50001x128.rank)
  reducesTo_S50001x128_S_d0_1 : S50001x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S800000x2 : S_.BroadcastsInDim S800000x2 (![] : Fin 0 → Fin S800000x2.rank)
  reducesTo_S800000x2_S_d0_1 : S800000x2.ReducesTo [0, 1] S_

variable [Facts]

def fn_part1 {F : FTy → Type} [FloatOps F] (main_arg0 : IVec S800000x2 32) (main_arg5 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S800000x2 32 := broadcastInDim S800000x2 ![] bcast_S_S800000x2 main_c_8
  let main_v25 : IVec S800000x2 1 := cmpi .sge main_arg0 main_v24
  let main_c_9 : IVec S_ 1 := constantI S_ 1 1#1
  let main_v26 : IVec S_ 1 := (fun x v => Host.reduce IntOp.andi x v reducesTo_S800000x2_S_d0_1 h_S_) main_v25 main_c_9
  let main_v27 : IVec S_ 1 := andi main_v23 main_v26
  let main_c_10 : IVec S_ 32 := constantI S_ 32 50001#32
  let main_v28 : IVec S800000x2 32 := broadcastInDim S800000x2 ![] bcast_S_S800000x2 main_c_10
  let main_v29 : IVec S800000x2 1 := cmpi .slt main_arg0 main_v28
  let main_c_11 : IVec S_ 1 := constantI S_ 1 1#1
  let main_v30 : IVec S_ 1 := (fun x v => Host.reduce IntOp.andi x v reducesTo_S800000x2_S_d0_1 h_S_) main_v29 main_c_11
  let main_v31 : IVec S_ 1 := andi main_v27 main_v30
  main_v31

def fn {F : FTy → Type} [FloatOps F] (main_arg0 : IVec S800000x2 32) (main_arg1 : FVec F S50001x128 .f32) (main_arg2 : FVec F S128x128 .f32) (main_arg3 : FVec F S128 .f32) (main_arg4 : FVec F S256x1 .f32) (main_arg5 : FVec F S1 .f32) : IVec S_ 1 :=
  let main_v0 : FVec F S50001x128 .f32 := Host.absf main_arg1
  let main_cst : FVec F S_ .f32 := constant S_ .f32 0x7F800000#32
  let main_v1 : FVec F S50001x128 .f32 := broadcastInDim S50001x128 ![] bcast_S_S50001x128 main_cst
  let main_v2 : IVec S50001x128 1 := cmpf .olt main_v0 main_v1
  let main_c : IVec S_ 1 := constantI S_ 1 1#1
  let main_v3 : IVec S_ 1 := (fun x v => Host.reduce IntOp.andi x v reducesTo_S50001x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg0 main_arg5 main_v13 main_v16
-- ==== Kernel.lean ====
abbrev S800000x2 : Shape := ⟨2, ![800000, 2]⟩
abbrev S50001x128 : Shape := ⟨2, ![50001, 128]⟩
abbrev S128x128 : Shape := ⟨2, ![128, 128]⟩
abbrev S128 : Shape := ⟨1, ![128]⟩
abbrev S256x1 : Shape := ⟨2, ![256, 1]⟩
abbrev S1 : Shape := ⟨1, ![1]⟩
abbrev S800000x1 : Shape := ⟨2, ![800000, 1]⟩
abbrev S800000 : Shape := ⟨1, ![800000]⟩
abbrev S_ : Shape := ⟨0, ![]⟩
abbrev S50176x128 : Shape := ⟨2, ![50176, 128]⟩
abbrev S1x128 : Shape := ⟨2, ![1, 128]⟩
abbrev S512x128 : Shape := ⟨2, ![512, 128]⟩
abbrev S800000x128 : Shape := ⟨2, ![800000, 128]⟩
abbrev S128x1 : Shape := ⟨2, ![128, 1]⟩
abbrev S1x1 : Shape := ⟨2, ![1, 1]⟩
abbrev S8000x128 : Shape := ⟨2, ![8000, 128]⟩
abbrev S8000x1 : Shape := ⟨2, ![8000, 1]⟩
abbrev S8000 : Shape := ⟨1, ![8000]⟩
abbrev S50001 : Shape := ⟨1, ![50001]⟩

abbrev nBuf : Space → Nat
  | .hbm => 67
  | .vmem => 25
  | .smem => 0
  | _ => 0

abbrev bufTy : (tb : Table) → Fin (tcTables nBuf tb) → BufTy
  | .hbm, ⟨0, _⟩ => ⟨S800000x2, .i32⟩
  | .hbm, ⟨1, _⟩ => ⟨S50001x128, .f32⟩
  | .hbm, ⟨2, _⟩ => ⟨S128x128, .f32⟩
  | .hbm, ⟨3, _⟩ => ⟨S128, .f32⟩
  | .hbm, ⟨4, _⟩ => ⟨S256x1, .f32⟩
  | .hbm, ⟨5, _⟩ => ⟨S1, .f32⟩
  | .hbm, ⟨6, _⟩ => ⟨S800000x1, .i32⟩
  | .hbm, ⟨7, _⟩ => ⟨S800000, .i32⟩
  | .hbm, ⟨8, _⟩ => ⟨S800000x1, .i32⟩
  | .hbm, ⟨9, _⟩ => ⟨S800000, .i32⟩
  | .hbm, ⟨10, _⟩ => ⟨S_, .i32⟩
  | .hbm, ⟨11, _⟩ => ⟨S_, .f32⟩
  | .hbm, ⟨12, _⟩ => ⟨S50176x128, .f32⟩
  | .hbm, ⟨13, _⟩ => ⟨S1x128, .f32⟩
  | .hbm, ⟨14, _⟩ => ⟨S50176x128, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S128x1, .f32⟩
  | .hbm, ⟨34, _⟩ => ⟨S128, .f32⟩
  | .hbm, ⟨35, _⟩ => ⟨S1x128, .f32⟩
  | .hbm, ⟨36, _⟩ => ⟨S128x1, .f32⟩
  | .hbm, ⟨37, _⟩ => ⟨S128, .f32⟩
  | .hbm, ⟨38, _⟩ => ⟨S1x128, .f32⟩
  | .hbm, ⟨39, _⟩ => ⟨S1x1, .f32⟩
  | .hbm, ⟨40, _⟩ => ⟨S800000x1, .f32⟩
  | .hbm, ⟨41, _⟩ => ⟨S800000, .f32⟩
  | .hbm, ⟨42, _⟩ => ⟨S_, .f32⟩
  | .hbm, ⟨43, _⟩ => ⟨S50001, .f32⟩
  | .hbm, ⟨44, _⟩ => ⟨S800000x1, .i32⟩
  | .hbm, ⟨45, _⟩ => ⟨S50001, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000, .f32⟩
  | .hbm, ⟨55, _⟩ => ⟨S800000, .f32⟩
  | .hbm, ⟨56, _⟩ => ⟨S800000x1, .f32⟩
  | .hbm, ⟨57, _⟩ => ⟨S800000x128, .f32⟩
  | .hbm, ⟨58, _⟩ => ⟨S_, .f32⟩
  | .hbm, ⟨59, _⟩ => ⟨S50001x128, .f32⟩
  | .hbm, ⟨60, _⟩ => ⟨S800000x1, .i32⟩
  | .hbm, ⟨61, _⟩ => ⟨S50001x128, .f32⟩
  | .hbm, ⟨62, _⟩ => ⟨S_, .i32⟩
  | .hbm, ⟨63, _⟩ => ⟨S_, .f32⟩
  | .hbm, ⟨64, _⟩ => ⟨S50176x128, .f32⟩
  | .hbm, ⟨65, _⟩ => ⟨S50176x128, .f32⟩
  | .hbm, ⟨66, _⟩ => ⟨S50001x128, .f32⟩
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S8000x128, .f32⟩
  | .local _ .vmem, ⟨7, _⟩ => ⟨S8000x128, .f32⟩
  | .local _ .vmem, ⟨8, _⟩ => ⟨S8000x128, .f32⟩
  | .local _ .vmem, ⟨9, _⟩ => ⟨S8000x128, .f32⟩
  | .local _ .vmem, ⟨10, _⟩ => ⟨S1x128, .f32⟩
  | .local _ .vmem, ⟨11, _⟩ => ⟨S1x128, .f32⟩
  | .local _ .vmem, ⟨12, _⟩ => ⟨S1x1, .f32⟩
  | .local _ .vmem, ⟨13, _⟩ => ⟨S8000x1, .f32⟩
  | .local _ .vmem, ⟨14, _⟩ => ⟨S8000x1, .f32⟩
  | .local _ .vmem, ⟨15, _⟩ => ⟨S8000x1, .f32⟩
  | .local _ .vmem, ⟨16, _⟩ => ⟨S8000x1, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | _, _ => ⟨S800000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_7 : Ref sig .tc := ⟨.hbm, 62, rfl⟩
abbrev main_call1_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![98], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  pads_S50001x128_S50176x128_01750_000 : S50001x128.Pads (![0, 0] : Fin 2 → Nat) ![175, 0] ![0, 0] S50176x128
  h_S_ : 0 < S_.numel
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  bcast_S_S800000 : S_.BroadcastsInDim S800000 (![] : Fin 0 → Fin S800000.rank)
  bcast_S800000_S800000x1_0 : S800000.BroadcastsInDim S800000x1 (![0] : Fin 1 → Fin S800000x1.rank)
  slices_S256x1_S128x1_0_0 : S256x1.Slices ![0, 0] S128x1
  shapeCasts_S128x1_S128 : S128x1.ShapeCasts S128
  slices_S256x1_S128x1_128_0 : S256x1.Slices ![128, 0] S128x1
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S1x128_S8000x128 : S1x128.Broadcasts S8000x128
  reduces_S8000x128_S8000 : S8000x128.Reduces [1] S8000
  shapeCasts_S8000_S8000x1 : S8000.ShapeCasts S8000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  bcast_S_S50001 : S_.BroadcastsInDim S50001 (![] : Fin 0 → Fin S50001.rank)
  shapeCasts_S800000_S800000x1 : S800000.ShapeCasts S800000x1
  shapeCasts_S8000x1_S8000x1 : S8000x1.ShapeCasts S8000x1
  broadcasts_S8000x1_S8000x128 : S8000x1.Broadcasts S8000x128
  bcast_S_S50001x128 : S_.BroadcastsInDim S50001x128 (![] : Fin 0 → Fin S50001x128.rank)
  slices_S50176x128_S50001x128_0_0 : S50176x128.Slices ![0, 0] S50001x128
  dot_S512x128_S128x128_S512x128_1_0_0_1_n_n_wf : DotDims.WF S512x128 S128x128 S512x128 [1] [0] [0] [1] [] []
  gather_S50176x128_S800000x1_S800000x128_1_0_n_n_0_1_1128_wf : GatherDims.WF S50176x128 S800000x1 S800000x128 [1] [0] [] [0] [] 1 ![1, 128]
  scatter_S50001_S800000x1_S800000_n_0_0_1_wf : ScatterDims.WF S50001 S800000x1 S800000 [] [0] [0] 1
  gather_S50001_S800000x1_S800000_n_0_n_n_0_1_1_wf : GatherDims.WF S50001 S800000x1 S800000 [] [0] [] [0] [] 1 ![1]
  scatter_S50001x128_S800000x1_S800000x128_1_0_0_1_wf : ScatterDims.WF S50001x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S50176x128.size a
  hwx0_0 : ∀ i : grid0.Coords, EltTy.bits .f32 = 32 ∨ (Rect.block (s := S50176x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S50176x128.size a
  hwx0_3 : ∀ i : grid0.Coords, EltTy.bits .f32 = 32 ∨ (Rect.block (s := S50176x128) S512x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S800000x128.size a
  hwx1_1 : ∀ i : grid1.Coords, EltTy.bits .f32 = 32 ∨ (Rect.block (s := S800000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x1.size a ≤ S800000x1.size a
  hwx1_5 : ∀ i : grid1.Coords, EltTy.bits .f32 = 32 ∨ (Rect.block (s := S800000x1) S8000x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x1.size a ≤ S800000x1.size a
  hwx2_0 : ∀ i : grid2.Coords, EltTy.bits .f32 = 32 ∨ (Rect.block (s := S800000x1) S8000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S800000x128.size a
  hwx2_2 : ∀ i : grid2.Coords, EltTy.bits .f32 = 32 ∨ (Rect.block (s := S800000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S50176x128.size a
  hwx3_0 : ∀ i : grid3.Coords, EltTy.bits .f32 = 32 ∨ (Rect.block (s := S50176x128) S512x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x128.size a ≤ S50176x128.size a
  hwx3_1 : ∀ i : grid3.Coords, EltTy.bits .f32 = 32 ∨ (Rect.block (s := S50176x128) S512x128.size (cc3_transform_1 i) (hinb3_1 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def gather_S50176x128_S800000x1_S800000x128_1_0_n_n_0_1_1128 : GatherDims S50176x128 S800000x1 S800000x128 where
  offsetDims := [1]
  collapsedSliceDims := [0]
  operandBatchingDims := []
  startIndicesBatchingDims := []
  startIndexMap := [0]
  indexVectorDim := 1
  sliceSizes := ![1, 128]
  wf := gather_S50176x128_S800000x1_S800000x128_1_0_n_n_0_1_1128_wf
def scatter_S50001_S800000x1_S800000_n_0_0_1 : ScatterDims S50001 S800000x1 S800000 where
  updateWindowDims := []
  insertedWindowDims := [0]
  scatterDimsToOperandDims := [0]
  indexVectorDim := 1
  wf := scatter_S50001_S800000x1_S800000_n_0_0_1_wf
def gather_S50001_S800000x1_S800000_n_0_n_n_0_1_1 : GatherDims S50001 S800000x1 S800000 where
  offsetDims := []
  collapsedSliceDims := [0]
  operandBatchingDims := []
  startIndicesBatchingDims := []
  startIndexMap := [0]
  indexVectorDim := 1
  sliceSizes := ![1]
  wf := gather_S50001_S800000x1_S800000_n_0_n_n_0_1_1_wf
def scatter_S50001x128_S800000x1_S800000x128_1_0_0_1 : ScatterDims S50001x128 S800000x1 S800000x128 where
  updateWindowDims := [1]
  insertedWindowDims := [0]
  scatterDimsToOperandDims := [0]
  indexVectorDim := 1
  wf := scatter_S50001x128_S800000x1_S800000x128_1_0_0_1_wf

abbrev win0_0 : Pipeline.Window sig grid0 :=
  Pipeline.Window.ofSpec (Memref.whole main_v4) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S8000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S8000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S512x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S800000x2 : Shape := ⟨2, ![800000, 2]⟩
abbrev S50001x128 : Shape := ⟨2, ![50001, 128]⟩
abbrev S128x128 : Shape := ⟨2, ![128, 128]⟩
abbrev S128 : Shape := ⟨1, ![128]⟩
abbrev S256x1 : Shape := ⟨2, ![256, 1]⟩
abbrev S1 : Shape := ⟨1, ![1]⟩
abbrev S800000x1 : Shape := ⟨2, ![800000, 1]⟩
abbrev S800000 : Shape := ⟨1, ![800000]⟩
abbrev S_ : Shape := ⟨0, ![]⟩
abbrev S800000x2x1 : Shape := ⟨3, ![800000, 2, 1]⟩
abbrev S800000x2x128 : Shape := ⟨3, ![800000, 2, 128]⟩
abbrev S1x1x128 : Shape := ⟨3, ![1, 1, 128]⟩
abbrev S800000x256 : Shape := ⟨2, ![800000, 256]⟩
abbrev S1x1 : Shape := ⟨2, ![1, 1]⟩
abbrev S50001 : Shape := ⟨1, ![50001]⟩
abbrev S1x128 : Shape := ⟨2, ![1, 128]⟩
abbrev S800000x128 : Shape := ⟨2, ![800000, 128]⟩

abbrev nBuf : Space → Nat
  | .hbm => 82
  | .vmem => 0
  | .smem => 0
  | _ => 0

abbrev bufTy : (tb : Table) → Fin (tcTables nBuf tb) → BufTy
  | .hbm, ⟨0, _⟩ => ⟨S800000x2, .i32⟩
  | .hbm, ⟨1, _⟩ => ⟨S50001x128, .f32⟩
  | .hbm, ⟨2, _⟩ => ⟨S128x128, .f32⟩
  | .hbm, ⟨3, _⟩ => ⟨S128, .f32⟩
  | .hbm, ⟨4, _⟩ => ⟨S256x1, .f32⟩
  | .hbm, ⟨5, _⟩ => ⟨S1, .f32⟩
  | .hbm, ⟨6, _⟩ => ⟨S800000x1, .i32⟩
  | .hbm, ⟨7, _⟩ => ⟨S800000, .i32⟩
  | .hbm, ⟨8, _⟩ => ⟨S800000x1, .i32⟩
  | .hbm, ⟨9, _⟩ => ⟨S800000, .i32⟩
  | .hbm, ⟨10, _⟩ => ⟨S_, .i32⟩
  | .hbm, ⟨11, _⟩ => ⟨S800000x2, .i32⟩
  | .hbm, ⟨12, _⟩ => ⟨S800000x2, .i1⟩
  | .hbm, ⟨13, _⟩ => ⟨S_, .i32⟩
  | .hbm, ⟨14, _⟩ => ⟨S800000x2, .i32⟩
  | .hbm, ⟨15, _⟩ => ⟨S800000x2, .i32⟩
  | .hbm, ⟨16, _⟩ => ⟨S800000x2, .i32⟩
  | .hbm, ⟨17, _⟩ => ⟨S800000x2x1, .i32⟩
  | .hbm, ⟨18, _⟩ => ⟨S800000x2x128, .f32⟩
  | .hbm, ⟨19, _⟩ => ⟨S800000x2x128, .f32⟩
  | .hbm, ⟨20, _⟩ => ⟨S1x1x128, .f32⟩
  | .hbm, ⟨21, _⟩ => ⟨S800000x2x128, .f32⟩
  | .hbm, ⟨22, _⟩ => ⟨S800000x2x128, .f32⟩
  | .hbm, ⟨23, _⟩ => ⟨S800000x256, .f32⟩
  | .hbm, ⟨24, _⟩ => ⟨S800000x1, .f32⟩
  | .hbm, ⟨25, _⟩ => ⟨S1x1, .f32⟩
  | .hbm, ⟨26, _⟩ => ⟨S800000x1, .f32⟩
  | .hbm, ⟨27, _⟩ => ⟨S800000x1, .f32⟩
  | .hbm, ⟨28, _⟩ => ⟨S_, .f32⟩
  | .hbm, ⟨29, _⟩ => ⟨S800000x1, .f32⟩
  | .hbm, ⟨30, _⟩ => ⟨S800000x1, .i1⟩
  | .hbm, ⟨31, _⟩ => ⟨S_, .f32⟩
  | .hbm, ⟨32, _⟩ => ⟨S800000x1, .f32⟩
  | .hbm, ⟨33, _⟩ => ⟨S800000x1, .f32⟩
  | .hbm, ⟨34, _⟩ => ⟨S800000x1, .f32⟩
  | .hbm, ⟨35, _⟩ => ⟨S800000, .f32⟩
  | .hbm, ⟨36, _⟩ => ⟨S_, .f32⟩
  | .hbm, ⟨37, _⟩ => ⟨S800000, .f32⟩
  | .hbm, ⟨38, _⟩ => ⟨S800000, .f32⟩
  | .hbm, ⟨39, _⟩ => ⟨S800000, .f32⟩
  | .hbm, ⟨40, _⟩ => ⟨S_, .f32⟩
  | .hbm, ⟨41, _⟩ => ⟨S50001, .f32⟩
  | .hbm, ⟨42, _⟩ => ⟨S800000x1, .i32⟩
  | .hbm, ⟨43, _⟩ => ⟨S50001, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000, .f32⟩
  | .hbm, ⟨53, _⟩ => ⟨S800000, .f32⟩
  | .hbm, ⟨54, _⟩ => ⟨S50001x128, .f32⟩
  | .hbm, ⟨55, _⟩ => ⟨S1x128, .f32⟩
  | .hbm, ⟨56, _⟩ => ⟨S50001x128, .f32⟩
  | .hbm, ⟨57, _⟩ => ⟨S50001x128, .f32⟩
  | .hbm, ⟨58, _⟩ => ⟨S800000x1, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S800000x128, .f32⟩
  | .hbm, ⟨69, _⟩ => ⟨S800000x128, .f32⟩
  | .hbm, ⟨70, _⟩ => ⟨S_, .f32⟩
  | .hbm, ⟨71, _⟩ => ⟨S50001x128, .f32⟩
  | .hbm, ⟨72, _⟩ => ⟨S800000x1, .i32⟩
  | .hbm, ⟨73, _⟩ => ⟨S50001x128, .f32⟩
  | .hbm, ⟨74, _⟩ => ⟨S50001x128, .f32⟩
  | .hbm, ⟨75, _⟩ => ⟨S50001x128, .f32⟩
  | .hbm, ⟨76, _⟩ => ⟨S_, .f32⟩
  | .hbm, ⟨77, _⟩ => ⟨S50001x128, .f32⟩
  | .hbm, ⟨78, _⟩ => ⟨S50001x128, .f32⟩
  | .hbm, ⟨79, _⟩ => ⟨S_, .f32⟩
  | .hbm, ⟨80, _⟩ => ⟨S50001x128, .f32⟩
  | .hbm, ⟨81, _⟩ => ⟨S50001x128, .f32⟩
  | _, _ => ⟨S800000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_6 : Ref sig .tc := ⟨.hbm, 59, rfl⟩
abbrev main_v45 : Ref sig .tc := ⟨.hbm, 60, rfl⟩
abbrev main_v46 : Ref sig .tc := ⟨.hbm, 61, rfl⟩
abbrev main_c_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000x2 : S_.BroadcastsInDim S800000x2 (![] : Fin 0 → Fin S800000x2.rank)
  bcast_S800000x2_S800000x2x1_0_1 : S800000x2.BroadcastsInDim S800000x2x1 (![0, 1] : Fin 2 → Fin S800000x2x1.rank)
  bcast_S128_S1x1x128_2 : S128.BroadcastsInDim S1x1x128 (![2] : Fin 1 → Fin S1x1x128.rank)
  bcast_S1x1x128_S800000x2x128_0_1_2 : S1x1x128.BroadcastsInDim S800000x2x128 (![0, 1, 2] : Fin 3 → Fin S800000x2x128.rank)
  shapeCasts_S800000x2x128_S800000x256 : S800000x2x128.ShapeCasts S800000x256
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S_S800000 : S_.BroadcastsInDim S800000 (![] : Fin 0 → Fin S800000.rank)
  bcast_S_S50001 : S_.BroadcastsInDim S50001 (![] : Fin 0 → Fin S50001.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50001x128_0_1 : S1x128.BroadcastsInDim S50001x128 (![0, 1] : Fin 2 → Fin S50001x128.rank)
  bcast_S800000x1_S800000x128_0_1 : S800000x1.BroadcastsInDim S800000x128 (![0, 1] : Fin 2 → Fin S800000x128.rank)
  bcast_S_S50001x128 : S_.BroadcastsInDim S50001x128 (![] : Fin 0 → Fin S50001x128.rank)
  gather_S50001x128_S800000x2x1_S800000x2x128_2_0_n_n_0_2_1128_wf : GatherDims.WF S50001x128 S800000x2x1 S800000x2x128 [2] [0] [] [0] [] 2 ![1, 128]
  dot_S800000x2x128_S128x128_S800000x2x128_2_0_01_1_n_n_wf : DotDims.WF S800000x2x128 S128x128 S800000x2x128 [2] [0] [0, 1] [1] [] []
  dot_S800000x256_S256x1_S800000x1_1_0_0_1_n_n_wf : DotDims.WF S800000x256 S256x1 S800000x1 [1] [0] [0] [1] [] []
  scatter_S50001_S800000x1_S800000_n_0_0_1_wf : ScatterDims.WF S50001 S800000x1 S800000 [] [0] [0] 1
  gather_S50001_S800000x1_S800000_n_0_n_n_0_1_1_wf : GatherDims.WF S50001 S800000x1 S800000 [] [0] [] [0] [] 1 ![1]
  dot_S50001x128_S128x128_S50001x128_1_0_0_1_n_n_wf : DotDims.WF S50001x128 S128x128 S50001x128 [1] [0] [0] [1] [] []
  gather_S50001x128_S800000x1_S800000x128_1_0_n_n_0_1_1128_wf : GatherDims.WF S50001x128 S800000x1 S800000x128 [1] [0] [] [0] [] 1 ![1, 128]
  scatter_S50001x128_S800000x1_S800000x128_1_0_0_1_wf : ScatterDims.WF S50001x128 S800000x1 S800000x128 [1] [0] [0] 1

variable [Facts₀]

def gather_S50001x128_S800000x2x1_S800000x2x128_2_0_n_n_0_2_1128 : GatherDims S50001x128 S800000x2x1 S800000x2x128 where
  offsetDims := [2]
  collapsedSliceDims := [0]
  operandBatchingDims := []
  startIndicesBatchingDims := []
  startIndexMap := [0]
  indexVectorDim := 2
  sliceSizes := ![1, 128]
  wf := gather_S50001x128_S800000x2x1_S800000x2x128_2_0_n_n_0_2_1128_wf
def dot_S800000x2x128_S128x128_S800000x2x128_2_0_01_1_n_n : DotDims S800000x2x128 S128x128 S800000x2x128 where
  lhsContracting := [2]
  rhsContracting := [0]
  lhsNonContracting := [0, 1]
  rhsNonContracting := [1]
  lhsBatch := []
  rhsBatch := []
  wf := dot_S800000x2x128_S128x128_S800000x2x128_2_0_01_1_n_n_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf
def scatter_S50001_S800000x1_S800000_n_0_0_1 : ScatterDims S50001 S800000x1 S800000 where
  updateWindowDims := []
  insertedWindowDims := [0]
  scatterDimsToOperandDims := [0]
  indexVectorDim := 1
  wf := scatter_S50001_S800000x1_S800000_n_0_0_1_wf
def gather_S50001_S800000x1_S800000_n_0_n_n_0_1_1 : GatherDims S50001 S800000x1 S800000 where
  offsetDims := []
  collapsedSliceDims := [0]
  operandBatchingDims := []
  startIndicesBatchingDims := []
  startIndexMap := [0]
  indexVectorDim := 1
  sliceSizes := ![1]
  wf := gather_S50001_S800000x1_S800000_n_0_n_n_0_1_1_wf
def dot_S50001x128_S128x128_S50001x128_1_0_0_1_n_n : DotDims S50001x128 S128x128 S50001x128 where
  lhsContracting := [1]
  rhsContracting := [0]
  lhsNonContracting := [0]
  rhsNonContracting := [1]
  lhsBatch := []
  rhsBatch := []
  wf := dot_S50001x128_S128x128_S50001x128_1_0_0_1_n_n_wf
def gather_S50001x128_S800000x1_S800000x128_1_0_n_n_0_1_1128 : GatherDims S50001x128 S800000x1 S800000x128 where
  offsetDims := [1]
  collapsedSliceDims := [0]
  operandBatchingDims := []
  startIndicesBatchingDims := []
  startIndexMap := [0]
  indexVectorDim := 1
  sliceSizes := ![1, 128]
  wf := gather_S50001x128_S800000x1_S800000x128_1_0_n_n_0_1_1128_wf
def scatter_S50001x128_S800000x1_S800000x128_1_0_0_1 : ScatterDims S50001x128 S800000x1 S800000x128 where
  updateWindowDims := [1]
  insertedWindowDims := [0]
  scatterDimsToOperandDims := [0]
  indexVectorDim := 1
  wf := scatter_S50001x128_S800000x1_S800000x128_1_0_0_1_wf

class Facts : Prop extends Facts₀ where

variable [Facts]
-- ==== Proof.SigmoidArray.lean ====
/-
  The fourth kernel: the logistic function applied entry by entry to a padded [50176, 128] array, 512 rows per grid
  point. Point t loads rows 512 t … 512 t + 511 whole, applies the logistic function lane by lane and stores the block
  whole; the 98 blocks tile the array, so after the region the output array is the logistic function of the input
  array, entry by entry.
-/
import proofs.«120566_j3040836846450_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen

variable {F : FTy → Type} [FloatOps F]
variable (V : (c : Dev nD) → (b : Ref sig .tc) → Buf (Elt F) ((c : Thread nD τ).loc b))

theorem zeroOffsets : (![0, 0] : Fin 2 → Nat) = fun _ => 0 := funext fun a => by fin_cases a <;> rfl

/-- The logistic function of a padded array, entry by entry. -/
def sigmoidOf (x : S50176x128.Idx → Elt F .f32) : S50176x128.Idx → Elt F .f32 := fun i => FloatOps.logistic (x i)

/-- Both windows of the fourth kernel sit at block row t, block column 0, at point t. -/
theorem sigmoid_index : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- What point t writes back is block t of the logistic function of the input array. -/
theorem sigmoid_flushed (c : Dev nD) (t : Fin cfg3.N) :
    (dat3 V c).flushed 1 t = ((cfg3.win 1).blk t).view.read (Elt F) (sigmoidOf (V c main_v46)) := by
  show (cfg3.win 1).cut (grid3.coords t) ((dat3 V c).after 1 t) = _
  rw [after3_1]
  unfold out3_1
  rw [View.canon_unit_zero zeroOffsets]
  simp only [View.ld_unit_zero (S := S512x128) zeroOffsets]
  unfold k3_pay1
  simp only [shapeCast_self]
  obtain ⟨e0, e1, e2, e3⟩ := sigmoid_index t
  funext j
  show FloatOps.logistic (V c main_v46 (((cfg3.win 0).blk t).view.emb j)) = FloatOps.logistic (V c main_v46 (((cfg3.win 1).blk t).view.emb j))
  have h0 : ((cfg3.win 0).blk t).view.emb j = ((cfg3.win 1).blk t).view.emb j := by
    funext a; apply Fin.ext
    match a with
    | ⟨0, _⟩ => show win3_0.index t (0 : Fin 2) * 512 + 1 * (j 0).val = win3_1.index t (0 : Fin 2) * 512 + 1 * (j 0).val; omega
    | ⟨1, _⟩ => show win3_0.index t (1 : Fin 2) * 128 + 1 * (j 1).val = win3_1.index t (1 : Fin 2) * 128 + 1 * (j 1).val; omega
  rw [h0]

/-- An index of the output array is in point t's block iff each coordinate is in the block's range. -/
theorem sigmoid_mem_blk (t : Fin cfg3.N) (i : S50176x128.Idx) :
    i ∈ ((cfg3.win 1).blk t).view.set ↔ ∀ a : Fin 2, win3_1.index t a * S512x128.size a ≤ (i a).val ∧ (i a).val < win3_1.index t a * S512x128.size a + S512x128.size a := by
  show i ∈ ((View.whole main_v47).slice (win3_1.rect t)).set ↔ _
  rw [View.set_slice_whole, Rect.mem_set_unit]
  exact Iff.rfl

/-- After the fourth region the output array is the logistic function of the input array, entry by entry. -/
theorem sigmoid_array (c : Dev nD) : (dat3 V c).arrAt 1 cfg3.N = sigmoidOf (V c main_v46) :=
  (dat3 V c).arrAt_eq_of_cover 1 (sigmoidOf (V c main_v46)) (fun t _ => sigmoid_flushed V c t) fun i => by
    have hi0 : (i 0).val < 50176 := (i 0).isLt
    have hi1 : (i 1).val < 128 := (i 1).isLt
    have hN : cfg3.N = 98 := N_3
    refine ⟨⟨(i 0).val / 512, by rw [hN]; omega⟩, flush3_1 _, ?_⟩
    rw [sigmoid_mem_blk]
    obtain ⟨e0, e1, e2, e3⟩ := sigmoid_index ⟨(i 0).val / 512, by rw [hN]; omega⟩
    intro a
    match a with
    | ⟨0, _⟩ => show win3_1.index _ (0 : Fin 2) * 512 ≤ (i 0).val ∧ (i 0).val < win3_1.index _ (0 : Fin 2) * 512 + 512; rw [e2]; show (i 0).val / 512 * 512 ≤ _ ∧ _ < (i 0).val / 512 * 512 + 512; omega
    | ⟨1, _⟩ => show win3_1.index _ (1 : Fin 2) * 128 ≤ (i 1).val ∧ (i 1).val < win3_1.index _ (1 : Fin 2) * 128 + 128; rw [e3]; omega

end Cert.KernelIdeal.Arrays

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«120566_j3040836846450_1_alg».proof.Proof.LibPlainDot
import proofs.«120566_j3040836846450_1_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.LibIx2.lean ====
/-
  Rank-2 operations read at an index given by coordinates: a matrix product with one contracted axis into the zero
  tile, a lane reduction (sum or maximum) of a matrix, and the keepdims column layouts [a] → [a,1] and
  [a,1] → [a,b]. Each is the library's read-at-an-index lemma with both indices written by coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibIx2

open Idealize.ShloMosaic Idealize.ShloMosaic.ValueIdx

/-! ## The keepdims column layouts -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane reduction of a matrix -/

/-- The source index over row `p` with lane `c` inserted is `(p, c)`. -/
theorem lift_ix1 {a b : ℕ} (h : (⟨2, ![a, b]⟩ : Shape).Reduces [1] ⟨1, ![a]⟩) (p : Fin a) (c : Fin b) :
    h.lift (ix1 p) c = ix2 p c := by
  funext ax
  match ax with
  | ⟨0, _⟩ => rfl
  | ⟨1, _⟩ => rfl

/-- A float sum over the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ c : Fin b, src (ix2 p c) :=
  (Ideal.multiReduction_add_single src acc h hφ hacc (ix1 p)).trans
    (Finset.sum_congr rfl fun c _ => congrArg src (lift_ix1 h p c))

/-- A float maximum over the lanes of an `[a, b]` matrix is, at row `p`, the fold of `max` from the accumulator's
    value over the lane coordinate. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  have e : (src ∘ h.lift (ix1 p)) = fun c : Fin b => src (ix2 p c) := funext fun c => congrArg src (lift_ix1 h p c)
  show (Finset.univ : Finset (Fin b)).fold max (Ideal.ofBits φ acc) (src ∘ h.lift (ix1 p)) = _
  rw [e]
  rfl

/-! ## A matrix product with one contracted axis -/

section Matmul
variable {m k n : ℕ} (d : DotDims ⟨2, ![m, k]⟩ ⟨2, ![k, n]⟩ ⟨2, ![m, n]⟩)

private theorem coord_congr {s : Shape} (j : s.Idx) (p q : ℕ) (hp : p < s.rank) (hq : q < s.rank) (e : p = q) :
    (j ⟨p, hp⟩).val = (j ⟨q, hq⟩).val := by subst e; rfl

/-- The left operand's row is the result's row. -/
theorem lhsIdx_row (hlb : d.lhsBatch = []) (hln : d.lhsNonContracting = [0]) (j : (⟨2, ![m, n]⟩ : Shape).Idx) (q : d.contr.Idx) :
    (d.lhsIdx j q 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's column is the result's column. -/
theorem rhsIdx_col (hlb : d.lhsBatch = []) (hrb : d.rhsBatch = []) (hln : d.lhsNonContracting = [0]) (hrn : d.rhsNonContracting = [1])
    (j : (⟨2, ![m, n]⟩ : Shape).Idx) (q : d.contr.Idx) :
    (d.rhsIdx j q 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A `tpu.matmul` of an `[m, k]` by a `[k, n]` matrix, contracting the left operand's columns with the right
    operand's rows, into the zero tile: at `(p, q)` the sum over `c` of `lhs (p, c) * rhs (c, q)`. -/
theorem matmul_zero_ix2_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = k)
    (prec : Option ContractPrecision) (lhs : FVec Ideal ⟨2, ![m, k]⟩ φ₁) (rhs : FVec Ideal ⟨2, ![k, n]⟩ φ₂)
    (p : Fin m) (q : Fin n) :
    FloatOps.matmul d prec lhs rhs (constant ⟨2, ![m, n]⟩ .f32 0x00000000#32) (ix2 p q)
      = ∑ c : Fin k, lhs (ix2 p c) * rhs (ix2 c q) := by
  rw [Ideal.matmul_constant_zero_apply, ← Equiv.sum_comp (contrEquiv1 d k hr hs).symm]
  refine Finset.sum_congr rfl fun c _ => ?_
  have hc := contrEquiv1_symm_val d k hr hs c
  have el : d.lhsIdx (ix2 p q) ((contrEquiv1 d k hr hs).symm c) = ix2 p c := funext fun a => Fin.ext (by
    match a with
    | ⟨0, _⟩ => exact lhsIdx_row d hlb hln _ _
    | ⟨1, _⟩ => exact (d.lhsIdx_val_of_single hlc _ _).trans hc)
  have er : d.rhsIdx (ix2 p q) ((contrEquiv1 d k hr hs).symm c) = ix2 c q := funext fun a => Fin.ext (by
    match a with
    | ⟨0, _⟩ => exact (d.rhsIdx_val_of_single hrc _ _).trans hc
    | ⟨1, _⟩ => exact rhsIdx_col d hlb hrb hln hrn _ _)
  rw [el, er]

end Matmul

end Cert.LibIx2

end
-- ==== Proof.Payloads.lean ====
/-
  The three stored values of the item, score and message kernels, read at an index at the ideal values.

  Item block: a [512,128] block times the [128,128] weights into the zero tile, plus the bias row repeated down the
  rows; rounding the operands to bf16 is the identity at the ideal values, so the entry at (p, q) is
  ∑ k, a (p, k) · w (k, q) + b (0, q).

  Score block: each of 8000 edges takes the lane sum of its source row against one weight row plus the lane sum of its
  destination row against another, plus a scalar bias; the logit z then goes through the leaky rectifier of slope 0.2
  (z when z ≥ 0, else 0.2 · z), minus one, and the exponential.

  Message block: each row of a [8000,128] block is scaled by that row's entry of a [8000,1] column.
-/
import proofs.«120566_j3040836846450_1_alg».proof.Proof.Gen.KernelIdeal.Skeleton
import proofs.«120566_j3040836846450_1_alg».proof.Proof.LibZeroAccDots
import proofs.«120566_j3040836846450_1_alg».proof.Proof.LibIx2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- The message block at (p, q): row p's scale times the entry. -/
theorem msgs_payload (n : Vec Ideal S8000x1 .f32) (d : Vec Ideal S8000x128 .f32) (p : Fin 8000) (q : Fin 128) :
    k2_pay1 n d (ix2 p q) = n (ix2 p (0 : Fin 1)) * d (ix2 p q) := by
  unfold k2_pay1
  simp only [shapeCast_self]
  show FloatOps.mulf (F := Ideal) (φ := .f32) (broadcastTo S8000x128 n broadcasts_S8000x1_S8000x128 (ix2 p q)) (d (ix2 p q)) = _
  rw [Cert.LibIx2.broadcastTo_a1_ab_apply]
  rfl

/-- The item block at (p, q): row p of the block against column q of the weights, plus the bias at lane q. -/
theorem item_payload (a : Vec Ideal S512x128 .f32) (w : Vec Ideal S128x128 .f32) (b : Vec Ideal S1x128 .f32) (p : Fin 512) (q : Fin 128) :
    k0_pay1 a w b (ix2 p q) = (∑ k : Fin 128, a (ix2 p k) * w (ix2 k q)) + b (ix2 (0 : Fin 1) q) := by
  unfold k0_pay1
  simp only [shapeCast_self]
  have hm : FloatOps.matmul dot_S512x128_S128x128_S512x128_1_0_0_1_n_n none
      (truncf (F := Ideal) .bf16 (a : FVec Ideal S512x128 .f32) bitsLt_bf16_f32) (truncf (F := Ideal) .bf16 (w : FVec Ideal S128x128 .f32) bitsLt_bf16_f32)
      (constant (F := Ideal) S512x128 .f32 0x00000000#32) (ix2 p q) = ∑ k : Fin 128, a (ix2 p k) * w (ix2 k q) :=
    Cert.ZeroAccDots.rows_columns dot_S512x128_S128x128_S512x128_1_0_0_1_n_n rfl rfl rfl rfl rfl rfl rfl rfl none _ _ p q
  have hb : broadcastTo S512x128 b broadcasts_S1x128_S512x128 (ix2 p q) = b (ix2 (0 : Fin 1) q) :=
    broadcastTo_1b_ab_apply b _ p q
  exact congrArg₂ (· + ·) hm hb

/-- leaky-relu(0.2), minus one, exponential: the score of an attention logit. -/
def scoreOf (z : EReal) : EReal :=
  FloatOps.exp (F := Ideal) (φ := .f32)
    (FloatOps.subf (F := Ideal) (φ := .f32)
      (Scalar.select (FloatOps.cmpf (F := Ideal) (φ := .f32) .oge z (FloatOps.ofBits (F := Ideal) .f32 0x00000000#32)) z
        (FloatOps.mulf (F := Ideal) (φ := .f32) (FloatOps.ofBits (F := Ideal) .f32 0x3E4CCCCD#32) z))
      (FloatOps.ofBits (F := Ideal) .f32 0x3F800000#32))

/-- The lane sum of a [8000,128] block against a weight row repeated down the rows, kept as a column: at row p the
    sum over the lanes of the block's entry times the weight. -/
theorem lane_dot (s : FVec Ideal S8000x128 .f32) (w : FVec Ideal S1x128 .f32) (hb : S1x128.Broadcasts S8000x128)
    (hr : S8000x128.Reduces [1] S8000) (hφ : FKind.Formats .f32)
    (hacc : (0x00000000#32 : BitVec (FTy.bits .f32)) = FKind.add.neutral .f32 hφ) (hc : S8000.ShapeCasts S8000x1)
    (p : Fin 8000) (u : Fin 1) :
    shapeCast S8000x1 (multiReduction .add [1] S8000 (mulf s (broadcastTo S8000x128 w hb)) 0x00000000#32 hr hφ hacc) hc (ix2 p u)
      = ∑ k : Fin 128, s (ix2 p k) * w (ix2 (0 : Fin 1) k) :=
  (Cert.LibIx2.shapeCast_a_a1_apply _ hc p u).trans
    ((Cert.LibIx2.multiReduction_add_lanes_apply (mulf s (broadcastTo S8000x128 w hb)) _ hr hφ hacc p).trans
      (Finset.sum_congr rfl fun k _ => congrArg (s (ix2 p k) * ·) (broadcastTo_1b_ab_apply w hb p k)))

/-- The score block at row p: the score of the source row's lane sum against its weights plus the destination row's
    against its weights plus the bias. -/
theorem scores_payload (s d : Vec Ideal S8000x128 .f32) (ws wd : Vec Ideal S1x128 .f32) (ba : Vec Ideal S1x1 .f32) (p : Fin 8000) :
    k1_pay1 s d ws wd ba (ix2 p (0 : Fin 1))
      = scoreOf (((∑ k : Fin 128, s (ix2 p k) * ws (ix2 (0 : Fin 1) k)) + (∑ k : Fin 128, d (ix2 p k) * wd (ix2 (0 : Fin 1) k)))
          + ba (ix2 (0 : Fin 1) (0 : Fin 1))) := by
  unfold k1_pay1
  simp only [shapeCast_self]
  refine congrArg scoreOf ?_
  have h1 := lane_dot s ws broadcasts_S1x128_S8000x128 reduces_S8000x128_S8000 (.inl rfl) rfl shapeCasts_S8000_S8000x1 p 0
  have h2 := lane_dot d wd broadcasts_S1x128_S8000x128 reduces_S8000x128_S8000 (.inl rfl) rfl shapeCasts_S8000_S8000x1 p 0
  have h3 : broadcastTo S8000x1 ba broadcasts_S1x1_S8000x1 (ix2 p (0 : Fin 1)) = ba (ix2 (0 : Fin 1) (0 : Fin 1)) :=
    broadcastTo_1b_ab_apply ba _ p (0 : Fin 1)
  exact congrArg₂ (· + ·) (congrArg₂ (· + ·) h1 h2) h3

end Cert.KernelIdeal.Payloads

end
-- ==== Proof.ItemArray.lean ====
/-
  The first kernel: the padded embedding table [50176, 128] times the weights [128, 128] plus the bias row, 512 rows per
  grid point. Point t loads rows 512 t … 512 t + 511 of the table, the whole weight matrix and the whole bias row, forms
  the block's product with the weights (contracting the table's columns with the weights' rows) plus the bias repeated
  down the rows, and stores the block whole; the 98 blocks tile the output, so after the region the output array at
  (n, f) is the sum over k of table (n, k) · weights (k, f), plus bias f.
-/
import proofs.«120566_j3040836846450_1_alg».proof.Proof.Gen.KernelIdeal.Frame
import Idealize.ShloMosaic.Lib.Pipeline.Value
import Idealize.ShloMosaic.Lib.ValueIdx
import Idealize.ShloMosaic.PureOps.Ideal
import proofs.«120566_j3040836846450_1_alg».proof.Proof.SigmoidArray
import proofs.«120566_j3040836846450_1_alg».proof.Proof.Payloads
set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Idealize.ShloMosaic.ValueIdx

variable (V : (c : Dev nD) → (b : Ref sig .tc) → Buf (Elt Ideal) ((c : Thread nD τ).loc b))

/-- The projection: row n of the table against column f of the weights, plus the bias at f. -/
def itemOf (A : S50176x128.Idx → EReal) (W : S128x128.Idx → EReal) (b : S1x128.Idx → EReal) : S50176x128.Idx → EReal :=
  fun i => (∑ k : Fin 128, A (ix2 (⟨(i 0).val, (i 0).isLt⟩ : Fin 50176) k) * W (ix2 k (⟨(i 1).val, (i 1).isLt⟩ : Fin 128)))
    + b (ix2 (0 : Fin 1) (⟨(i 1).val, (i 1).isLt⟩ : Fin 128))

theorem itemOf_ix2 (A : S50176x128.Idx → EReal) (W : S128x128.Idx → EReal) (b : S1x128.Idx → EReal) (r : Fin 50176) (q : Fin 128) :
    itemOf A W b (ix2 r q) = (∑ k : Fin 128, A (ix2 r k) * W (ix2 k q)) + b (ix2 (0 : Fin 1) q) := rfl

/-- The table's and the output's windows sit at block row t; the weights' and the bias's at the one block they have. -/
theorem item_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the projected table. -/
theorem item_flushed (c : Dev nD) (t : Fin cfg0.N) :
    (dat0 V c).flushed 3 t = ((cfg0.win 3).blk t).view.read (Elt Ideal) (itemOf (V c main_v4) (V c main_arg2) (V c main_v5)) := by
  show (cfg0.win 3).cut (grid0.coords t) ((dat0 V c).after 3 t) = _
  rw [after0_3]
  unfold out0_3
  rw [View.canon_unit_zero zeroOffsets]
  simp only [View.ld_unit_zero (S := S512x128) zeroOffsets, View.ld_unit_zero (S := S128x128) zeroOffsets, View.ld_unit_zero (S := S1x128) zeroOffsets]
  obtain ⟨e0, e1, e2, e3, e4, e5, e6, e7⟩ := item_index t
  have ht : t.val < 98 := lt_of_lt_of_eq t.isLt (N_0 : cfg0.N = 98)
  funext j
  obtain ⟨p, q, rfl⟩ : ∃ (p : Fin 512) (q : Fin 128), j = ix2 p q := ⟨j 0, j 1, eq_ix2 j⟩
  have hp : p.val < 512 := p.isLt
  refine (Payloads.item_payload _ _ _ p q).trans ?_
  have hOut : ((cfg0.win 3).blk t).view.emb (ix2 p q) = ix2 (⟨t.val * 512 + p.val, by omega⟩ : Fin 50176) q := by
    funext a; apply Fin.ext
    match a with
    | ⟨0, _⟩ => show win0_3.index t (0 : Fin 2) * 512 + 1 * p.val = t.val * 512 + p.val; omega
    | ⟨1, _⟩ => show win0_3.index t (1 : Fin 2) * 128 + 1 * q.val = q.val; omega
  have hA : ∀ k : Fin 128, ((cfg0.win 0).blk t).view.emb (ix2 p k) = ix2 (⟨t.val * 512 + p.val, by omega⟩ : Fin 50176) k := fun k => by
    funext a; apply Fin.ext
    match a with
    | ⟨0, _⟩ => show win0_0.index t (0 : Fin 2) * 512 + 1 * p.val = t.val * 512 + p.val; omega
    | ⟨1, _⟩ => show win0_0.index t (1 : Fin 2) * 128 + 1 * k.val = k.val; omega
  have hW : ∀ k : Fin 128, ((cfg0.win 1).blk t).view.emb (ix2 k q) = ix2 k q := fun k => by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have hB : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  have key : ∀ (A : S50176x128.Idx → EReal) (W : S128x128.Idx → EReal) (b : S1x128.Idx → EReal),
      (∑ k : Fin 128, A (((cfg0.win 0).blk t).view.emb (ix2 p k)) * W (((cfg0.win 1).blk t).view.emb (ix2 k q)))
          + b (((cfg0.win 2).blk t).view.emb (ix2 (0 : Fin 1) q))
        = itemOf A W b (((cfg0.win 3).blk t).view.emb (ix2 p q)) := by
    intro A W b
    rw [hOut, itemOf_ix2, hB]
    simp only [hA, hW]
  exact key (V c main_v4) (V c main_arg2) (V c main_v5)

/-- An index of the output array is in point t's block iff each coordinate is in the block's range. -/
theorem item_mem_blk (t : Fin cfg0.N) (i : S50176x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v6).slice (win0_3.rect t)).set ↔ _
  rw [View.set_slice_whole, Rect.mem_set_unit]
  exact Iff.rfl

/-- After the first region the output array is the projected table. -/
theorem item_array (c : Dev nD) : (dat0 V c).arrAt 3 cfg0.N = itemOf (V c main_v4) (V c main_arg2) (V c main_v5) :=
  (dat0 V c).arrAt_eq_of_cover 3 (itemOf (V c main_v4) (V c main_arg2) (V c main_v5)) (fun t _ => item_flushed V c t) fun i => by
    have hi0 : (i 0).val < 50176 := (i 0).isLt
    have hi1 : (i 1).val < 128 := (i 1).isLt
    have hN : cfg0.N = 98 := N_0
    refine ⟨⟨(i 0).val / 512, by rw [hN]; omega⟩, flush0_3 _, ?_⟩
    rw [item_mem_blk]
    obtain ⟨e0, e1, e2, e3, e4, e5, e6, e7⟩ := item_index ⟨(i 0).val / 512, by rw [hN]; omega⟩
    intro a
    match a with
    | ⟨0, _⟩ => show win0_3.index _ (0 : Fin 2) * 512 ≤ (i 0).val ∧ (i 0).val < win0_3.index _ (0 : Fin 2) * 512 + 512; rw [e6]; show (i 0).val / 512 * 512 ≤ _ ∧ _ < (i 0).val / 512 * 512 + 512; omega
    | ⟨1, _⟩ => show win0_3.index _ (1 : Fin 2) * 128 ≤ (i 1).val ∧ (i 1).val < win0_3.index _ (1 : Fin 2) * 128 + 128; rw [e7]; omega

end Cert.KernelIdeal.Arrays

end
-- ==== Proof.ScoresArray.lean ====
/-
  The second kernel: the attention score of every edge, 8000 edges per grid point. Point t loads rows
  8000 t … 8000 t + 7999 of the source rows and of the destination rows [800000, 128], the two weight rows [1, 128] and
  the bias [1, 1] whole; per edge it adds the source row's product with the first weight row, summed along the lanes, to
  the destination row's with the second, adds the bias, and takes the score (leaky relu, minus one, exponential); it
  stores the column block whole. The 100 blocks tile the output column [800000, 1].
-/
import proofs.«120566_j3040836846450_1_alg».proof.Proof.Gen.KernelIdeal.Frame
import Idealize.ShloMosaic.Lib.Pipeline.Value
import Idealize.ShloMosaic.Lib.ValueIdx
import Idealize.ShloMosaic.PureOps.Ideal
import proofs.«120566_j3040836846450_1_alg».proof.Proof.SigmoidArray
import proofs.«120566_j3040836846450_1_alg».proof.Proof.Payloads
set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Idealize.ShloMosaic.ValueIdx

variable (V : (c : Dev nD) → (b : Ref sig .tc) → Buf (Elt Ideal) ((c : Thread nD τ).loc b))

/-- The score column: per edge, the score of (source row · first weight row) + (destination row · second) + bias. -/
def scoresOf (S D : S800000x128.Idx → EReal) (ws wd : S1x128.Idx → EReal) (ba : S1x1.Idx → EReal) : S800000x1.Idx → EReal :=
  fun i => Payloads.scoreOf (((∑ k : Fin 128, S (ix2 (⟨(i 0).val, (i 0).isLt⟩ : Fin 800000) k) * ws (ix2 (0 : Fin 1) k))
    + (∑ k : Fin 128, D (ix2 (⟨(i 0).val, (i 0).isLt⟩ : Fin 800000) k) * wd (ix2 (0 : Fin 1) k))) + ba (ix2 (0 : Fin 1) (0 : Fin 1)))

theorem scoresOf_ix2 (S D : S800000x128.Idx → EReal) (ws wd : S1x128.Idx → EReal) (ba : S1x1.Idx → EReal) (r : Fin 800000) :
    scoresOf S D ws wd ba (ix2 r (0 : Fin 1)) = Payloads.scoreOf (((∑ k : Fin 128, S (ix2 r k) * ws (ix2 (0 : Fin 1) k))
      + (∑ k : Fin 128, D (ix2 r k) * wd (ix2 (0 : Fin 1) k))) + ba (ix2 (0 : Fin 1) (0 : Fin 1))) := rfl

/-- The row windows and the output's sit at block row t; the weight rows' and the bias's at their one block. -/
theorem scores_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the score column. -/
theorem scores_flushed (c : Dev nD) (t : Fin cfg1.N) :
    (dat1 V c).flushed 5 t = ((cfg1.win 5).blk t).view.read (Elt Ideal)
      (scoresOf (V c main_v13) (V c main_v20) (V c main_v23) (V c main_v26) (V c main_v27)) := by
  show (cfg1.win 5).cut (grid1.coords t) ((dat1 V c).after 5 t) = _
  rw [after1_5]
  unfold out1_5
  rw [View.canon_unit_zero zeroOffsets]
  simp only [View.ld_unit_zero (S := S8000x128) zeroOffsets, View.ld_unit_zero (S := S1x128) zeroOffsets, View.ld_unit_zero (S := S1x1) zeroOffsets]
  obtain ⟨e0, e1, e2, e3, e4, e5, e6, e7, e8, e9, e10, e11⟩ := scores_index t
  have ht : t.val < 100 := lt_of_lt_of_eq t.isLt (N_1 : cfg1.N = 100)
  funext j
  obtain ⟨p, u, rfl⟩ : ∃ (p : Fin 8000) (u : Fin 1), j = ix2 p u := ⟨j 0, j 1, eq_ix2 j⟩
  obtain rfl : u = 0 := Subsingleton.elim _ _
  have hp : p.val < 8000 := p.isLt
  refine (Payloads.scores_payload _ _ _ _ _ p).trans ?_
  have hOut : ((cfg1.win 5).blk t).view.emb (ix2 p (0 : Fin 1)) = ix2 (⟨t.val * 8000 + p.val, by omega⟩ : Fin 800000) (0 : Fin 1) := by
    funext a; apply Fin.ext
    match a with
    | ⟨0, _⟩ => show win1_5.index t (0 : Fin 2) * 8000 + 1 * p.val = t.val * 8000 + p.val; omega
    | ⟨1, _⟩ => show win1_5.index t (1 : Fin 2) * 1 + 1 * 0 = 0; omega
  have hS : ∀ k : Fin 128, ((cfg1.win 0).blk t).view.emb (ix2 p k) = ix2 (⟨t.val * 8000 + p.val, by omega⟩ : Fin 800000) k := fun k => by
    funext a; apply Fin.ext
    match a with
    | ⟨0, _⟩ => show win1_0.index t (0 : Fin 2) * 8000 + 1 * p.val = t.val * 8000 + p.val; omega
    | ⟨1, _⟩ => show win1_0.index t (1 : Fin 2) * 128 + 1 * k.val = k.val; omega
  have hD : ∀ k : Fin 128, ((cfg1.win 1).blk t).view.emb (ix2 p k) = ix2 (⟨t.val * 8000 + p.val, by omega⟩ : Fin 800000) k := fun k => by
    funext a; apply Fin.ext
    match a with
    | ⟨0, _⟩ => show win1_1.index t (0 : Fin 2) * 8000 + 1 * p.val = t.val * 8000 + p.val; omega
    | ⟨1, _⟩ => show win1_1.index t (1 : Fin 2) * 128 + 1 * k.val = k.val; omega
  have hWs : ∀ k : Fin 128, ((cfg1.win 2).blk t).view.emb (ix2 (0 : Fin 1) k) = ix2 (0 : Fin 1) k := fun k => by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have hWd : ∀ k : Fin 128, ((cfg1.win 3).blk t).view.emb (ix2 (0 : Fin 1) k) = ix2 (0 : Fin 1) k := fun k => by
    funext a; apply Fin.ext
    match a with
    | ⟨0, _⟩ => show win1_3.index t (0 : Fin 2) * 1 + 1 * 0 = 0; omega
    | ⟨1, _⟩ => show win1_3.index t (1 : Fin 2) * 128 + 1 * k.val = k.val; omega
  have hBa : ((cfg1.win 4).blk t).view.emb (ix2 (0 : Fin 1) (0 : Fin 1)) = ix2 (0 : Fin 1) (0 : Fin 1) := by
    funext a; apply Fin.ext
    match a with
    | ⟨0, _⟩ => show win1_4.index t (0 : Fin 2) * 1 + 1 * 0 = 0; omega
    | ⟨1, _⟩ => show win1_4.index t (1 : Fin 2) * 1 + 1 * 0 = 0; omega
  have key : ∀ (S D : S800000x128.Idx → EReal) (ws wd : S1x128.Idx → EReal) (ba : S1x1.Idx → EReal),
      Payloads.scoreOf (((∑ k : Fin 128, S (((cfg1.win 0).blk t).view.emb (ix2 p k)) * ws (((cfg1.win 2).blk t).view.emb (ix2 (0 : Fin 1) k)))
          + (∑ k : Fin 128, D (((cfg1.win 1).blk t).view.emb (ix2 p k)) * wd (((cfg1.win 3).blk t).view.emb (ix2 (0 : Fin 1) k))))
          + ba (((cfg1.win 4).blk t).view.emb (ix2 (0 : Fin 1) (0 : Fin 1))))
        = scoresOf S D ws wd ba (((cfg1.win 5).blk t).view.emb (ix2 p (0 : Fin 1))) := by
    intro S D ws wd ba
    rw [hOut, scoresOf_ix2, hBa]
    simp only [hS, hD, hWs, hWd]
  exact key (V c main_v13) (V c main_v20) (V c main_v23) (V c main_v26) (V c main_v27)

/-- An index of the output array is in point t's block iff each coordinate is in the block's range. -/
theorem scores_mem_blk (t : Fin cfg1.N) (i : S800000x1.Idx) :
    i ∈ ((cfg1.win 5).blk t).view.set ↔ ∀ a : Fin 2, win1_5.index t a * S8000x1.size a ≤ (i a).val ∧ (i a).val < win1_5.index t a * S8000x1.size a + S8000x1.size a := by
  show i ∈ ((View.whole main_v28).slice (win1_5.rect t)).set ↔ _
  rw [View.set_slice_whole, Rect.mem_set_unit]
  exact Iff.rfl

/-- After the second region the output array is the score column. -/
theorem scores_array (c : Dev nD) : (dat1 V c).arrAt 5 cfg1.N
    = scoresOf (V c main_v13) (V c main_v20) (V c main_v23) (V c main_v26) (V c main_v27) :=
  (dat1 V c).arrAt_eq_of_cover 5 _ (fun t _ => scores_flushed V c t) fun i => by
    have hi0 : (i 0).val < 800000 := (i 0).isLt
    have hi1 : (i 1).val < 1 := (i 1).isLt
    have hN : cfg1.N = 100 := N_1
    refine ⟨⟨(i 0).val / 8000, by rw [hN]; omega⟩, flush1_5 _, ?_⟩
    rw [scores_mem_blk]
    obtain ⟨e0, e1, e2, e3, e4, e5, e6, e7, e8, e9, e10, e11⟩ := scores_index ⟨(i 0).val / 8000, by rw [hN]; omega⟩
    intro a
    match a with
    | ⟨0, _⟩ => show win1_5.index _ (0 : Fin 2) * 8000 ≤ (i 0).val ∧ (i 0).val < win1_5.index _ (0 : Fin 2) * 8000 + 8000; rw [e10]; show (i 0).val / 8000 * 8000 ≤ _ ∧ _ < (i 0).val / 8000 * 8000 + 8000; omega
    | ⟨1, _⟩ => show win1_5.index _ (1 : Fin 2) * 1 ≤ (i 1).val ∧ (i 1).val < win1_5.index _ (1 : Fin 2) * 1 + 1; rw [e11]; omega

end Cert.KernelIdeal.Arrays

end
-- ==== Proof.MsgsArray.lean ====
/-
  The third kernel: each of the 800000 edge messages is the edge's normalised score times the destination's projected
  embedding, 8000 edges per grid point. Point t loads rows 8000 t … 8000 t + 7999 of the score column [800000, 1] and of
  the embeddings [800000, 128], multiplies the column into the rows and stores the block whole; the 100 blocks tile the
  output, so after the region the output array at (e, f) is the score of e times the embedding at (e, f).
-/
import proofs.«120566_j3040836846450_1_alg».proof.Proof.Gen.KernelIdeal.Frame
import Idealize.ShloMosaic.Lib.Pipeline.Value
import Idealize.ShloMosaic.Lib.ValueIdx
import Idealize.ShloMosaic.PureOps.Ideal
import proofs.«120566_j3040836846450_1_alg».proof.Proof.SigmoidArray
import proofs.«120566_j3040836846450_1_alg».proof.Proof.Payloads
set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Idealize.ShloMosaic.ValueIdx

variable (V : (c : Dev nD) → (b : Ref sig .tc) → Buf (Elt Ideal) ((c : Thread nD τ).loc b))

/-- The messages: row e of the embeddings scaled by the e-th score. -/
def msgsOf (n : S800000x1.Idx → EReal) (d : S800000x128.Idx → EReal) : S800000x128.Idx → EReal :=
  fun i => n (ix2 (⟨(i 0).val, (i 0).isLt⟩ : Fin 800000) (0 : Fin 1)) * d i

/-- All three windows of the third kernel sit at block row t, block column 0, at point t. -/
theorem msgs_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the messages array. -/
theorem msgs_flushed (c : Dev nD) (t : Fin cfg2.N) :
    (dat2 V c).flushed 2 t = ((cfg2.win 2).blk t).view.read (Elt Ideal) (msgsOf (V c main_v41) (V c main_v20)) := by
  show (cfg2.win 2).cut (grid2.coords t) ((dat2 V c).after 2 t) = _
  rw [after2_2]
  unfold out2_2
  rw [View.canon_unit_zero zeroOffsets]
  simp only [View.ld_unit_zero (S := S8000x1) zeroOffsets, View.ld_unit_zero (S := S8000x128) zeroOffsets]
  obtain ⟨e0, e1, e2, e3, e4, e5⟩ := msgs_index t
  funext j
  obtain ⟨p, q, rfl⟩ : ∃ (p : Fin 8000) (q : Fin 128), j = ix2 p q := ⟨j 0, j 1, eq_ix2 j⟩
  refine (Payloads.msgs_payload _ _ p q).trans ?_
  have hp : p.val < 8000 := p.isLt
  have ht : t.val < 100 := lt_of_lt_of_eq t.isLt (N_2 : cfg2.N = 100)
  have h0 : ((cfg2.win 0).blk t).view.emb (ix2 p (0 : Fin 1))
      = ix2 (⟨((((cfg2.win 2).blk t).view.emb (ix2 p q)) 0).val, ((((cfg2.win 2).blk t).view.emb (ix2 p q)) 0).isLt⟩ : Fin 800000) (0 : Fin 1) := by
    funext a; apply Fin.ext
    match a with
    | ⟨0, _⟩ => show win2_0.index t (0 : Fin 2) * 8000 + 1 * p.val = win2_2.index t (0 : Fin 2) * 8000 + 1 * p.val; omega
    | ⟨1, _⟩ => show win2_0.index t (1 : Fin 2) * 1 + 1 * 0 = 0; omega
  have h1 : ((cfg2.win 1).blk t).view.emb (ix2 p q) = ((cfg2.win 2).blk t).view.emb (ix2 p q) := by
    funext a; apply Fin.ext
    match a with
    | ⟨0, _⟩ => show win2_1.index t (0 : Fin 2) * 8000 + 1 * p.val = win2_2.index t (0 : Fin 2) * 8000 + 1 * p.val; omega
    | ⟨1, _⟩ => show win2_1.index t (1 : Fin 2) * 128 + 1 * q.val = win2_2.index t (1 : Fin 2) * 128 + 1 * q.val; omega
  have key : ∀ (A : S800000x1.Idx → EReal) (D : S800000x128.Idx → EReal),
      A (((cfg2.win 0).blk t).view.emb (ix2 p (0 : Fin 1))) * D (((cfg2.win 1).blk t).view.emb (ix2 p q))
        = msgsOf A D (((cfg2.win 2).blk t).view.emb (ix2 p q)) := by
    intro A D
    unfold msgsOf
    rw [h0, h1]
  exact key (V c main_v41) (V c main_v20)

/-- An index of the output array is in point t's block iff each coordinate is in the block's range. -/
theorem msgs_mem_blk (t : Fin cfg2.N) (i : S800000x128.Idx) :
    i ∈ ((cfg2.win 2).blk t).view.set ↔ ∀ a : Fin 2, win2_2.index t a * S8000x128.size a ≤ (i a).val ∧ (i a).val < win2_2.index t a * S8000x128.size a + S8000x128.size a := by
  show i ∈ ((View.whole main_v42).slice (win2_2.rect t)).set ↔ _
  rw [View.set_slice_whole, Rect.mem_set_unit]
  exact Iff.rfl

/-- After the third region the output array is the messages array. -/
theorem msgs_array (c : Dev nD) : (dat2 V c).arrAt 2 cfg2.N = msgsOf (V c main_v41) (V c main_v20) :=
  (dat2 V c).arrAt_eq_of_cover 2 (msgsOf (V c main_v41) (V c main_v20)) (fun t _ => msgs_flushed V c t) fun i => by
    have hi0 : (i 0).val < 800000 := (i 0).isLt
    have hi1 : (i 1).val < 128 := (i 1).isLt
    have hN : cfg2.N = 100 := N_2
    refine ⟨⟨(i 0).val / 8000, by rw [hN]; omega⟩, flush2_2 _, ?_⟩
    rw [msgs_mem_blk]
    obtain ⟨e0, e1, e2, e3, e4, e5⟩ := msgs_index ⟨(i 0).val / 8000, by rw [hN]; omega⟩
    intro a
    match a with
    | ⟨0, _⟩ => show win2_2.index _ (0 : Fin 2) * 8000 ≤ (i 0).val ∧ (i 0).val < win2_2.index _ (0 : Fin 2) * 8000 + 8000; rw [e4]; show (i 0).val / 8000 * 8000 ≤ _ ∧ _ < (i 0).val / 8000 * 8000 + 8000; omega
    | ⟨1, _⟩ => show win2_2.index _ (1 : Fin 2) * 128 ≤ (i 1).val ∧ (i 1).val < win2_2.index _ (1 : Fin 2) * 128 + 128; rw [e5]; omega

end Cert.KernelIdeal.Arrays

end
-- ==== Proof.KernelStages.lean ====
/-
  The idealized kernel program's result as ONE term of the six argument arrays. The program is four kernels among
  host operations: pad the embedding table to 50176 rows and project it (kernel 1: table times weights plus bias), gather
  the projected rows of both endpoints of every edge, score every edge (kernel 2), normalise the scores by their sums
  per source node (a scatter-add, a gather and a division on the host), scale the destination rows by the normalised
  scores (kernel 3), add the messages up per source node (a scatter-add), pad, apply the logistic function (kernel 4)
  and cut the padding off. Each stage below is that operation applied to the stages before it.
-/
import proofs.«120566_j3040836846450_1_alg».proof.Proof.ItemArray
import proofs.«120566_j3040836846450_1_alg».proof.Proof.ScoresArray
import proofs.«120566_j3040836846450_1_alg».proof.Proof.MsgsArray
import proofs.«120566_j3040836846450_1_alg».proof.Proof.SigmoidArray
import Idealize.ShloMosaic.PureOps.Ideal

set_option maxRecDepth 16384

noncomputable section

namespace Cert.KernelIdeal.Stages

open Cert.KernelIdeal Cert.KernelIdeal.Gen Cert.KernelIdeal.Arrays
open Idealize.ShloMosaic Idealize.ShloMosaic.TcCoe Idealize.SL.Sem

abbrev Edges := (⟨S800000x2, .i32⟩ : BufTy).Contents (Elt Ideal)
abbrev Ends := (⟨S800000, .i32⟩ : BufTy).Contents (Elt Ideal)
abbrev Table := (⟨S50001x128, .f32⟩ : BufTy).Contents (Elt Ideal)
abbrev Padded := (⟨S50176x128, .f32⟩ : BufTy).Contents (Elt Ideal)
abbrev Weights := (⟨S128x128, .f32⟩ : BufTy).Contents (Elt Ideal)
abbrev Bias := (⟨S128, .f32⟩ : BufTy).Contents (Elt Ideal)
abbrev AttW := (⟨S256x1, .f32⟩ : BufTy).Contents (Elt Ideal)
abbrev AttB := (⟨S1, .f32⟩ : BufTy).Contents (Elt Ideal)
abbrev Rows := (⟨S800000x128, .f32⟩ : BufTy).Contents (Elt Ideal)

/-- The source node of every edge: column 0 of the edge array. -/
def src (x0 : Edges) : Ends :=
  shapeCast _ (extractStridedSlice S800000x1 ![0, 0] x0 slices_S800000x2_S800000x1_0_0) shapeCasts_S800000x1_S800000
/-- The destination node of every edge: column 1. -/
def dst (x0 : Edges) : Ends :=
  shapeCast _ (extractStridedSlice S800000x1 ![0, 1] x0 slices_S800000x2_S800000x1_0_1) shapeCasts_S800000x1_S800000
/-- The embedding table with 175 zero rows below it. -/
def tablePad (x1 : Table) : Padded :=
  pad S50176x128 ![0, 0] ![175, 0] ![0, 0] x1 (sitofp (F := Ideal) .f32 (constantI S_ 32 0#32)) pads_S50001x128_S50176x128_01750_000 h_S_
/-- The bias as a row. -/
def biasRow (x3 : Bias) : (⟨S1x128, .f32⟩ : BufTy).Contents (Elt Ideal) := shapeCast _ x3 shapeCasts_S128_S1x128
/-- The projected table (kernel 1). -/
def item (x1 : Table) (x2 : Weights) (x3 : Bias) : Padded := itemOf (tablePad x1) x2 (biasRow x3)
/-- A node number with a negative one wrapped by the padded table's row count. -/
def wrapPadded (i : Ends) : Ends :=
  select (cmpi .slt i (broadcastInDim S800000 ![] bcast_S_S800000 (constantI S_ 32 0#32)))
    (addi i (broadcastInDim S800000 ![] bcast_S_S800000 (constantI S_ 32 50176#32))) i
/-- The rows of a padded table at the given node numbers. -/
def rowsAt (X : Padded) (i : Ends) : Rows :=
  Host.gather gather_S50176x128_S800000x1_S800000x128_1_0_n_n_0_1_1128 X
    (broadcastInDim S800000x1 ![0] bcast_S800000_S800000x1_0 (wrapPadded i))
/-- The first half of the attention weights as a row. -/
def attSrc (x4 : AttW) : (⟨S1x128, .f32⟩ : BufTy).Contents (Elt Ideal) :=
  shapeCast _ (shapeCast _ (extractStridedSlice S128x1 ![0, 0] x4 slices_S256x1_S128x1_0_0) shapeCasts_S128x1_S128) shapeCasts_S128_S1x128
/-- The second half of the attention weights as a row. -/
def attDst (x4 : AttW) : (⟨S1x128, .f32⟩ : BufTy).Contents (Elt Ideal) :=
  shapeCast _ (shapeCast _ (extractStridedSlice S128x1 ![128, 0] x4 slices_S256x1_S128x1_128_0) shapeCasts_S128x1_S128) shapeCasts_S128_S1x128
/-- The attention bias as a [1, 1] array. -/
def attBias (x5 : AttB) : (⟨S1x1, .f32⟩ : BufTy).Contents (Elt Ideal) := shapeCast _ x5 shapeCasts_S1_S1x1
/-- The score of every edge (kernel 2), flat. -/
def scores (x0 : Edges) (x1 : Table) (x2 : Weights) (x3 : Bias) (x4 : AttW) (x5 : AttB) : (⟨S800000, .f32⟩ : BufTy).Contents (Elt Ideal) :=
  shapeCast _ (scoresOf (rowsAt (item x1 x2 x3) (src x0)) (rowsAt (item x1 x2 x3) (dst x0)) (attSrc x4) (attDst x4) (attBias x5))
    shapeCasts_S800000x1_S800000
/-- The scores normalised by their sum over the edges of the same source node, given the flat scores. -/
def normalised (x0 : Edges) (s : (⟨S800000, .f32⟩ : BufTy).Contents (Elt Ideal)) : (⟨S800000, .f32⟩ : BufTy).Contents (Elt Ideal) :=
  Host.divf (F := Ideal) s
    (Host.gather gather_S50001_S800000x1_S800000_n_0_n_n_0_1_1
      (Host.scatterAdd (F := Ideal) scatter_S50001_S800000x1_S800000_n_0_0_1
        (broadcastInDim S50001 ![] bcast_S_S50001 (constant (F := Ideal) S_ .f32 0x00000000#32))
        (broadcastInDim S800000x1 ![0] bcast_S800000_S800000x1_0 (src x0)) s)
      (broadcastInDim S800000x1 ![0] bcast_S800000_S800000x1_0
        (select (cmpi .slt (src x0) (broadcastInDim S800000 ![] bcast_S_S800000 (constantI S_ 32 0#32)))
          (addi (src x0) (broadcastInDim S800000 ![] bcast_S_S800000 (constantI S_ 32 50001#32))) (src x0))))
/-- The messages (kernel 3), given the normalised scores. -/
def msgs (x0 : Edges) (x1 : Table) (x2 : Weights) (x3 : Bias) (n : (⟨S800000, .f32⟩ : BufTy).Contents (Elt Ideal)) : Rows :=
  msgsOf (shapeCast _ n shapeCasts_S800000_S800000x1) (rowsAt (item x1 x2 x3) (dst x0))
/-- The messages added up per source node, given the messages. -/
def aggregate (x0 : Edges) (ms : Rows) : Table :=
  Host.scatterAdd (F := Ideal) scatter_S50001x128_S800000x1_S800000x128_1_0_0_1
    (broadcastInDim S50001x128 ![] bcast_S_S50001x128 (constant (F := Ideal) S_ .f32 0x00000000#32))
    (broadcastInDim S800000x1 ![0] bcast_S800000_S800000x1_0 (src x0)) ms
/-- Pad, logistic function (kernel 4), cut the padding off. -/
def finish (a : Table) : Table :=
  extractStridedSlice S50001x128 ![0, 0]
    (sigmoidOf (pad S50176x128 ![0, 0] ![175, 0] ![0, 0] a (sitofp (F := Ideal) .f32 (constantI S_ 32 0#32)) pads_S50001x128_S50176x128_01750_000 h_S_))
    slices_S50176x128_S50001x128_0_0
/-- The program's result. -/
def result (x0 : Edges) (x1 : Table) (x2 : Weights) (x3 : Bias) (x4 : AttW) (x5 : AttB) : Table :=
  finish (aggregate x0 (msgs x0 x1 x2 x3 (normalised x0 (scores x0 x1 x2 x3 x4 x5))))

end Cert.KernelIdeal.Stages

end
-- ==== Proof.KernelValue.lean ====
/-
  The contents of the idealized kernel program's result buffer at the end of its run, unfolded boundary by boundary:
  each host stretch applies its operations to the contents the boundary before it left, each region leaves its output
  array at its kernel's whole-array function of its input arrays (the four region modules) and every other buffer as it
  found it. Composed, the result buffer holds `Stages.result` of the six argument arrays as launched.
-/
import proofs.«120566_j3040836846450_1_alg».proof.Proof.KernelStages
import Idealize.ShloMosaic.Lib.StableHlo.Run

set_option maxRecDepth 16384

noncomputable section

namespace Cert.KernelIdeal.Boundaries

open Cert.KernelIdeal Cert.KernelIdeal.Gen Cert.KernelIdeal.Arrays Cert.KernelIdeal.Stages
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## Before the first region -/

theorem src3 (c : Dev nD) : W3 m ρ c (Proc.devRef .tc main_v1) = src (m ((c.tc : Thread nD τ).loc main_arg0)) := by
  show StableHlo.after hostOps0_2 (StableHlo.after hostOps0_1 (StableHlo.after hostOps0 (W0 m ρ c))) (Proc.devRef .tc main_v1) = _
  dsimp only [hostOps0_2, hostOps0_1, hostOps0]
  after_results
  rfl
theorem dst3 (c : Dev nD) : W3 m ρ c (Proc.devRef .tc main_v3) = dst (m ((c.tc : Thread nD τ).loc main_arg0)) := by
  show StableHlo.after hostOps0_2 (StableHlo.after hostOps0_1 (StableHlo.after hostOps0 (W0 m ρ c))) (Proc.devRef .tc main_v3) = _
  dsimp only [hostOps0_2, hostOps0_1, hostOps0]
  after_results
  rfl
theorem pad3 (c : Dev nD) : W3 m ρ c (Proc.devRef .tc main_v4) = tablePad (m ((c.tc : Thread nD τ).loc main_arg1)) := by
  show StableHlo.after hostOps0_2 (StableHlo.after hostOps0_1 (StableHlo.after hostOps0 (W0 m ρ c))) (Proc.devRef .tc main_v4) = _
  dsimp only [hostOps0_2, hostOps0_1, hostOps0]
  after_results
  rfl
theorem weights3 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  dsimp only [hostOps0_2, hostOps0_1, hostOps0]
  after_results
theorem bias3 (c : Dev nD) : W3 m ρ c (Proc.devRef .tc main_v5) = biasRow (m ((c.tc : Thread nD τ).loc main_arg3)) := by
  show StableHlo.after hostOps0_2 (StableHlo.after hostOps0_1 (StableHlo.after hostOps0 (W0 m ρ c))) (Proc.devRef .tc main_v5) = _
  dsimp only [hostOps0_2, hostOps0_1, hostOps0]
  after_results
  rfl
theorem attW3 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  dsimp only [hostOps0_2, hostOps0_1, hostOps0]
  after_results
theorem attB3 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  dsimp only [hostOps0_2, hostOps0_1, hostOps0]
  after_results

/-! ## After the first region -/

theorem item4 (c : Dev nD) : W4 m ρ c (Proc.devRef .tc main_v6)
    = item (m ((c.tc : Thread nD τ).loc main_arg1)) (m ((c.tc : Thread nD τ).loc main_arg2)) (m ((c.tc : Thread nD τ).loc main_arg3)) := by
  refine (W4_arr m ρ c 3).trans ((item_array (V3 m ρ) c).trans ?_)
  show itemOf (W3 m ρ c (Proc.devRef .tc main_v4)) (W3 m ρ c (Proc.devRef .tc main_arg2)) (W3 m ρ c (Proc.devRef .tc main_v5)) = _
  rw [pad3, weights3, bias3]
  rfl
theorem src4 (c : Dev nD) : W4 m ρ c (Proc.devRef .tc main_v1) = src (m ((c.tc : Thread nD τ).loc main_arg0)) :=
  (W4_of_ne m ρ c main_v1 (by decide)).trans (src3 m ρ c)
theorem dst4 (c : Dev nD) : W4 m ρ c (Proc.devRef .tc main_v3) = dst (m ((c.tc : Thread nD τ).loc main_arg0)) :=
  (W4_of_ne m ρ c main_v3 (by decide)).trans (dst3 m ρ c)
theorem attW4 (c : Dev nD) : W4 m ρ c (Proc.devRef .tc main_arg4) = m ((c.tc : Thread nD τ).loc main_arg4) :=
  (W4_of_ne m ρ c main_arg4 (by decide)).trans (attW3 m ρ c)
theorem attB4 (c : Dev nD) : W4 m ρ c (Proc.devRef .tc main_arg5) = m ((c.tc : Thread nD τ).loc main_arg5) :=
  (W4_of_ne m ρ c main_arg5 (by decide)).trans (attB3 m ρ c)

end Cert.KernelIdeal.Boundaries

end
-- ==== Proof.KernelMsgs.lean ====
/-
  The idealized kernel program's buffers from the first region's exit to the third region's exit: the gathered rows of
  both endpoints, the two attention weight rows and the bias, the score column the second region leaves, the normalised
  scores, and the messages the third region leaves; the source column and the destination rows ride along unchanged.
-/
import proofs.«120566_j3040836846450_1_alg».proof.Proof.KernelValue

set_option maxRecDepth 16384
set_option maxHeartbeats 1600000

noncomputable section

namespace Cert.KernelIdeal.Boundaries

open Cert.KernelIdeal Cert.KernelIdeal.Gen Cert.KernelIdeal.Arrays Cert.KernelIdeal.Stages
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)
/-! ## Before and after the second region -/

theorem srcRows5 (c : Dev nD) : W5 m ρ c (Proc.devRef .tc main_v13)
    = rowsAt (item (m ((c.tc : Thread nD τ).loc main_arg1)) (m ((c.tc : Thread nD τ).loc main_arg2)) (m ((c.tc : Thread nD τ).loc main_arg3)))
        (src (m ((c.tc : Thread nD τ).loc main_arg0))) := by
  show StableHlo.after hostOps1 (W4 m ρ c) (Proc.devRef .tc main_v13) = _
  dsimp only [hostOps1]
  after_results_simp
  rw [item4, src4]
  unfold rowsAt wrapPadded
  rfl
theorem dstRows5 (c : Dev nD) : W5 m ρ c (Proc.devRef .tc main_v20)
    = rowsAt (item (m ((c.tc : Thread nD τ).loc main_arg1)) (m ((c.tc : Thread nD τ).loc main_arg2)) (m ((c.tc : Thread nD τ).loc main_arg3)))
        (dst (m ((c.tc : Thread nD τ).loc main_arg0))) := by
  show StableHlo.after hostOps1 (W4 m ρ c) (Proc.devRef .tc main_v20) = _
  dsimp only [hostOps1]
  after_results_simp
  rw [item4, dst4]
  unfold rowsAt wrapPadded
  rfl
theorem attSrc5 (c : Dev nD) : W5 m ρ c (Proc.devRef .tc main_v23) = attSrc (m ((c.tc : Thread nD τ).loc main_arg4)) := by
  show StableHlo.after hostOps1 (W4 m ρ c) (Proc.devRef .tc main_v23) = _
  dsimp only [hostOps1]
  after_results_simp
  rw [attW4]
  unfold attSrc
  rfl
theorem attDst5 (c : Dev nD) : W5 m ρ c (Proc.devRef .tc main_v26) = attDst (m ((c.tc : Thread nD τ).loc main_arg4)) := by
  show StableHlo.after hostOps1 (W4 m ρ c) (Proc.devRef .tc main_v26) = _
  dsimp only [hostOps1]
  after_results_simp
  rw [attW4]
  unfold attDst
  rfl
theorem attBias5 (c : Dev nD) : W5 m ρ c (Proc.devRef .tc main_v27) = attBias (m ((c.tc : Thread nD τ).loc main_arg5)) := by
  show StableHlo.after hostOps1 (W4 m ρ c) (Proc.devRef .tc main_v27) = _
  dsimp only [hostOps1]
  after_results_simp
  rw [attB4]
  unfold attBias
  rfl
theorem src5 (c : Dev nD) : W5 m ρ c (Proc.devRef .tc main_v1) = src (m ((c.tc : Thread nD τ).loc main_arg0)) := by
  show StableHlo.after hostOps1 (W4 m ρ c) (Proc.devRef .tc main_v1) = _
  dsimp only [hostOps1]
  after_results_simp
  exact src4 m ρ c

/-- The score column the second region leaves. -/
theorem scores6 (c : Dev nD) : W6 m ρ c (Proc.devRef .tc main_v28)
    = scoresOf (rowsAt (item (m ((c.tc : Thread nD τ).loc main_arg1)) (m ((c.tc : Thread nD τ).loc main_arg2)) (m ((c.tc : Thread nD τ).loc main_arg3))) (src (m ((c.tc : Thread nD τ).loc main_arg0))))
        (rowsAt (item (m ((c.tc : Thread nD τ).loc main_arg1)) (m ((c.tc : Thread nD τ).loc main_arg2)) (m ((c.tc : Thread nD τ).loc main_arg3))) (dst (m ((c.tc : Thread nD τ).loc main_arg0))))
        (attSrc (m ((c.tc : Thread nD τ).loc main_arg4))) (attDst (m ((c.tc : Thread nD τ).loc main_arg4))) (attBias (m ((c.tc : Thread nD τ).loc main_arg5))) := by
  refine (W6_arr m ρ c 5).trans ((scores_array (V5 m ρ) c).trans ?_)
  show scoresOf (W5 m ρ c (Proc.devRef .tc main_v13)) (W5 m ρ c (Proc.devRef .tc main_v20)) (W5 m ρ c (Proc.devRef .tc main_v23))
    (W5 m ρ c (Proc.devRef .tc main_v26)) (W5 m ρ c (Proc.devRef .tc main_v27)) = _
  rw [srcRows5, dstRows5, attSrc5, attDst5, attBias5]
theorem src6 (c : Dev nD) : W6 m ρ c (Proc.devRef .tc main_v1) = src (m ((c.tc : Thread nD τ).loc main_arg0)) :=
  (W6_of_ne m ρ c main_v1 (by decide)).trans (src5 m ρ c)
/-- The destination rows are an input of the second region: it leaves them as it found them. -/
theorem dstRows6 (c : Dev nD) : W6 m ρ c (Proc.devRef .tc main_v20)
    = rowsAt (item (m ((c.tc : Thread nD τ).loc main_arg1)) (m ((c.tc : Thread nD τ).loc main_arg2)) (m ((c.tc : Thread nD τ).loc main_arg3)))
        (dst (m ((c.tc : Thread nD τ).loc main_arg0))) :=
  (W6_arr m ρ c 1).trans ((((dat1 (V5 m ρ) c).arrAt_in 1 rfl _).trans (A_eq1 (V5 m ρ) c 1)).trans (dstRows5 m ρ c))

/-! ## Before and after the third region -/

theorem norm7 (c : Dev nD) : W7 m ρ c (Proc.devRef .tc main_v41)
    = shapeCast _ (normalised (m ((c.tc : Thread nD τ).loc main_arg0))
        (scores (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))))
        shapeCasts_S800000_S800000x1 := by
  show StableHlo.after hostOps2 (W6 m ρ c) (Proc.devRef .tc main_v41) = _
  dsimp only [hostOps2]
  after_results_simp
  rw [scores6, src6]
  unfold normalised scores
  rfl
theorem dstRows7 (c : Dev nD) : W7 m ρ c (Proc.devRef .tc main_v20)
    = rowsAt (item (m ((c.tc : Thread nD τ).loc main_arg1)) (m ((c.tc : Thread nD τ).loc main_arg2)) (m ((c.tc : Thread nD τ).loc main_arg3)))
        (dst (m ((c.tc : Thread nD τ).loc main_arg0))) := by
  show StableHlo.after hostOps2 (W6 m ρ c) (Proc.devRef .tc main_v20) = _
  dsimp only [hostOps2]
  after_results_simp
  exact dstRows6 m ρ c
theorem src7 (c : Dev nD) : W7 m ρ c (Proc.devRef .tc main_v1) = src (m ((c.tc : Thread nD τ).loc main_arg0)) := by
  show StableHlo.after hostOps2 (W6 m ρ c) (Proc.devRef .tc main_v1) = _
  dsimp only [hostOps2]
  after_results_simp
  exact src6 m ρ c

/-- The messages the third region leaves. -/
theorem msgs8 (c : Dev nD) : W8 m ρ c (Proc.devRef .tc main_v42)
    = msgs (m ((c.tc : Thread nD τ).loc main_arg0)) (m ((c.tc : Thread nD τ).loc main_arg1)) (m ((c.tc : Thread nD τ).loc main_arg2)) (m ((c.tc : Thread nD τ).loc main_arg3))
        (normalised (m ((c.tc : Thread nD τ).loc main_arg0))
          (scores (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)))) := by
  refine (W8_arr m ρ c 2).trans ((msgs_array (V7 m ρ) c).trans ?_)
  show msgsOf (W7 m ρ c (Proc.devRef .tc main_v41)) (W7 m ρ c (Proc.devRef .tc main_v20)) = _
  rw [norm7, dstRows7]
  unfold msgs
  rfl
theorem src8 (c : Dev nD) : W8 m ρ c (Proc.devRef .tc main_v1) = src (m ((c.tc : Thread nD τ).loc main_arg0)) :=
  (W8_of_ne m ρ c main_v1 (by decide)).trans (src7 m ρ c)

end Cert.KernelIdeal.Boundaries

end
-- ==== Proof.KernelResult.lean ====
/-
  The end of the idealized kernel program's run: the messages added up per source node and padded to 50176 rows, the
  fourth region's logistic function of that array, and the result buffer, which is its first 50001 rows: in all,
  `Stages.result` of the six argument arrays as launched.
-/
import proofs.«120566_j3040836846450_1_alg».proof.Proof.KernelMsgs

set_option maxRecDepth 16384
set_option maxHeartbeats 1600000

noncomputable section

namespace Cert.KernelIdeal.Boundaries

open Cert.KernelIdeal Cert.KernelIdeal.Gen Cert.KernelIdeal.Arrays Cert.KernelIdeal.Stages
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The fourth region and the result -/

/-- The padding stretch (two operations) from ANY contents: the aggregate buffer padded by the converted zero. -/
theorem padStretch (W : Valuation τ sig (Elt Ideal)) : StableHlo.after hostOps3_1 W (Proc.devRef .tc main_v46)
    = pad S50176x128 ![0, 0] ![175, 0] ![0, 0] (W (Proc.devRef .tc main_v45) : (⟨S50001x128, .f32⟩ : BufTy).Contents (Elt Ideal))
        (sitofp (F := Ideal) .f32 (W (Proc.devRef .tc main_c_7) : (⟨S_, .i32⟩ : BufTy).Contents (Elt Ideal)))
        pads_S50001x128_S50176x128_01750_000 h_S_ := by
  dsimp only [hostOps3_1]
  after_results
  rfl

/-- The aggregate after the stretch before it, in terms of the buffers the third region left. -/
theorem agg9 (c : Dev nD) : W9 m ρ c (Proc.devRef .tc main_v45)
    = Host.scatterAdd (F := Ideal) scatter_S50001x128_S800000x1_S800000x128_1_0_0_1
        (broadcastInDim S50001x128 ![] bcast_S_S50001x128 (constant (F := Ideal) S_ .f32 0x00000000#32))
        (broadcastInDim S800000x1 ![0] bcast_S800000_S800000x1_0 (W8 m ρ c (Proc.devRef .tc main_v1)))
        (W8 m ρ c (Proc.devRef .tc main_v42)) := by
  show StableHlo.after hostOps3 (W8 m ρ c) (Proc.devRef .tc main_v45) = _
  dsimp only [hostOps3]
  after_results
theorem zero9 (c : Dev nD) : W9 m ρ c (Proc.devRef .tc main_c_7) = constantI S_ 32 0#32 := by
  show StableHlo.after hostOps3 (W8 m ρ c) (Proc.devRef .tc main_c_7) = _
  dsimp only [hostOps3]
  after_results

/-- The padded aggregate in terms of the buffers the third region left. -/
theorem aggPad10_of8 (c : Dev nD) : W10 m ρ c (Proc.devRef .tc main_v46)
    = pad S50176x128 ![0, 0] ![175, 0] ![0, 0]
        (Host.scatterAdd (F := Ideal) scatter_S50001x128_S800000x1_S800000x128_1_0_0_1
          (broadcastInDim S50001x128 ![] bcast_S_S50001x128 (constant (F := Ideal) S_ .f32 0x00000000#32))
          (broadcastInDim S800000x1 ![0] bcast_S800000_S800000x1_0 (W8 m ρ c (Proc.devRef .tc main_v1)))
          (W8 m ρ c (Proc.devRef .tc main_v42)))
        (sitofp (F := Ideal) .f32 (constantI S_ 32 0#32)) pads_S50001x128_S50176x128_01750_000 h_S_ := by
  show StableHlo.after hostOps3_1 (W9 m ρ c) (Proc.devRef .tc main_v46) = _
  rw [padStretch, agg9, zero9]

theorem aggPad10 (c : Dev nD) : W10 m ρ c (Proc.devRef .tc main_v46)
    = pad S50176x128 ![0, 0] ![175, 0] ![0, 0]
        (aggregate (m ((c.tc : Thread nD τ).loc main_arg0))
          (msgs (m ((c.tc : Thread nD τ).loc main_arg0)) (m ((c.tc : Thread nD τ).loc main_arg1)) (m ((c.tc : Thread nD τ).loc main_arg2)) (m ((c.tc : Thread nD τ).loc main_arg3))
            (normalised (m ((c.tc : Thread nD τ).loc main_arg0))
              (scores (m ((c.tc : Thread nD τ).loc main_arg0)) (m ((c.tc : Thread nD τ).loc main_arg1)) (m ((c.tc : Thread nD τ).loc main_arg2))
                (m ((c.tc : Thread nD τ).loc main_arg3)) (m ((c.tc : Thread nD τ).loc main_arg4)) (m ((c.tc : Thread nD τ).loc main_arg5))))))
        (sitofp (F := Ideal) .f32 (constantI S_ 32 0#32)) pads_S50001x128_S50176x128_01750_000 h_S_ := by
  rw [aggPad10_of8, msgs8, src8]
  unfold aggregate
  rfl

/-- The result buffer is the first 50001 rows of the fourth region's output array. -/
theorem result12_of11 (c : Dev nD) : W12 m ρ c (Proc.devRef .tc main_v48)
    = extractStridedSlice S50001x128 ![0, 0] (W11 m ρ c (Proc.devRef .tc main_v47)) slices_S50176x128_S50001x128_0_0 := by
  show StableHlo.after hostOps4 (W11 m ρ c) (Proc.devRef .tc main_v48) = _
  dsimp only [hostOps4]
  after_results

/-- The fourth region leaves the logistic function of the padded aggregate. -/
theorem sig11 (c : Dev nD) : W11 m ρ c (Proc.devRef .tc main_v47) = sigmoidOf (W10 m ρ c (Proc.devRef .tc main_v46)) :=
  (W11_arr m ρ c 1).trans (sigmoid_array (V10 m ρ) c)

/-- THE RESULT BUFFER at the end of the run. -/
theorem result12 (c : Dev nD) : W12 m ρ c (Proc.devRef .tc main_v48)
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [result12_of11, sig11, aggPad10]
  unfold result finish
  rfl

end Cert.KernelIdeal.Boundaries

end
-- ==== Proof.LibRowGather.lean ====
/-
  Rows picked and rows accumulated through an integer index column.

  A gather whose start indices form a column `[E, 1]` and whose slices are whole rows reads, at `(e, c)`, the operand's
  row number `idx (e, 0)` — the word read as a signed integer and clamped into `[0, N - 1]` — at column `c`. An
  accumulating scatter with the same index column sends update row `e` to the operand row whose number is that signed
  integer, NOT clamped, and drops the row when the number is negative or at least `N`; so the result at `(v, c)` is
  the operand there plus the sum of the updates `(e, c)` over the edges `e` whose integer is exactly `v`. The same two
  readings hold for a flat operand `[N]` (no column coordinate). Stated for any extents `N`, `E`, `C`.
-/
import Idealize.ShloMosaic.Lib.ValueIdx
import Idealize.ShloMosaic.PureOps.Ideal.Laws

open scoped BigOperators

noncomputable section

namespace Cert.RowIndex

open Idealize.ShloMosaic Idealize.ShloMosaic.ValueIdx

variable {α : Type}

/-- A start index read as a signed integer and clamped into `[0, N - 1]`. -/
def clampRow (N : Nat) (hN : 0 < N) {w : Nat} (b : BitVec w) : Fin N :=
  ⟨min b.toInt.toNat (N - 1), by omega⟩

/-! ## Gathering whole rows of an `[N, C]` operand -/

/-- The dimension numbers of "row `idx (e, 0)` of the operand, whole": offset axis 1, collapsed axis 0, the start
    index names axis 0, the index vector is the column's unit axis. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, c)`: the operand at the clamped row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow N hN (idx (ix2 e (0 : Fin 1)))) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hst : (rowGather N E C wf).start (ix2 e c) idx 1 = 0 := by
      unfold GatherDims.start
      rw [dif_neg (show (1 : Fin 2) ∉ (rowGather N E C wf).startIndexMap from
        fun h => absurd (congrArg Fin.val (List.mem_singleton.mp h)) Nat.one_ne_zero)]
    have hof : (rowGather N E C wf).offCoord (ix2 e c) 1 = c.val := by
      unfold GatherDims.offCoord
      rw [dif_pos ((GatherDims.mem_sKept _ _).mpr
        ⟨fun h => absurd (congrArg Fin.val (List.mem_singleton.mp h)) Nat.one_ne_zero, List.not_mem_nil⟩)]
      rfl
    rw [hst, hof]
    omega

/-! ## Gathering entries of a flat `[N]` operand -/

/-- The dimension numbers of "entry `idx (e, 0)` of a flat operand". -/
abbrev flatGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the operand at the clamped entry. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e) = x (ix1 (clampRow N hN (idx (ix2 e (0 : Fin 1))))) := by
  unfold Host.gather
  congr 1
  funext a
  obtain rfl : a = 0 := Subsingleton.elim _ _
  refine Fin.ext ?_
  show (flatGather N E wf).start (ix1 e) idx 0 + (flatGather N E wf).batchCoord (ix1 e) 0
    + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.RowIndex

end
-- ==== Proof.LibPairGather.lean ====
/-
  Row indices that are already node numbers, and rows gathered through a pair of indices per entry.

  Two index corrections are the identity in range: the wrap of negative indices, `select (x < 0) (x + N) x`, returns
  `x` at every entry whose signed value is non-negative; and the clamp of a start index into `[0, N - 1]` returns
  the signed value itself when it is already in `[0, N)`.

  A gather of whole rows of an `[N, C]` operand through an index array `[E, 2, 1]` (two row numbers per entry:
  offset axis 2, collapsed axis 0, the start index names axis 0, the index vector is the unit axis) reads, at
  `(e, p, c)`, the operand's row number `idx (e, p, 0)` — the word read signed and clamped — at column `c`.
  Stated for any extents `N`, `E`, `C`.
-/
import proofs.«120566_j3040836846450_1_alg».proof.Proof.LibRowGather
import Idealize.ShloMosaic.Lib.ReduceAll
import Idealize.ShloMosaic.Lib.ValueIdx
import Idealize.ShloMosaic.PureOps.Ideal

noncomputable section

namespace Cert.EdgeRows

open Idealize.ShloMosaic Idealize.ShloMosaic.ValueIdx

/-! ## The two index corrections are the identity in range -/

/-- A start index already in `[0, N)` is its own clamp. -/
theorem clampRow_val_of_range {N : Nat} (hN : 0 < N) (b : BitVec 32) (h0 : 0 ≤ b.toInt) (h1 : b.toInt < N) :
    (Cert.RowIndex.clampRow N hN b).val = b.toInt.toNat := by
  show min b.toInt.toNat (N - 1) = b.toInt.toNat
  omega

/-- The wrap of negative indices, `select (x < 0) (x + N) x`, is `x` at every entry whose signed value is not negative. -/
theorem wrap_of_nonneg {S : Shape} (x zeros cN : IVec S 32) (hz : ∀ i, zeros i = 0#32) (i : S.Idx)
    (h : 0 ≤ (x i).toInt) : select (cmpi .slt x zeros) (addi x cN) x i = x i := by
  show Scalar.select (IntOp.cmpi .slt (x i) (zeros i)) (IntOp.addi (x i) (cN i)) (x i) = x i
  have hc : IntOp.cmpi .slt (x i) (zeros i) ≠ 1#1 := by
    intro e
    have hlt := IntOp.cmpi_slt.1 e
    rw [hz i, show (0#32 : BitVec 32).toInt = 0 from by decide] at hlt
    omega
  unfold Scalar.select
  exact if_neg hc

/-! ## Gathering whole rows through an `[E, 2, 1]` index array -/

/-- The dimension numbers of "row `idx (e, p, 0)` of the operand, whole": offset axis 2, collapsed axis 0, the start
    index names axis 0, the index vector is the index array's unit axis. -/
abbrev pairGather (N E C : Nat)
    (wf : GatherDims.WF ⟨2, ![N, C]⟩ ⟨3, ![E, 2, 1]⟩ ⟨3, ![E, 2, C]⟩ [2] [0] [] [0] [] 2 ![1, C]) :
    GatherDims ⟨2, ![N, C]⟩ ⟨3, ![E, 2, 1]⟩ ⟨3, ![E, 2, C]⟩ where
  offsetDims := [2]
  collapsedSliceDims := [0]
  operandBatchingDims := []
  startIndicesBatchingDims := []
  startIndexMap := [0]
  indexVectorDim := 2
  sliceSizes := ![1, C]
  wf := wf

/-- THE PAIR GATHER AT `(e, p, c)`: the operand at the clamped row `idx (e, p, 0)` and the same column. -/
theorem gather_pair_rows_apply {α : Type} {N E C w : Nat} (hN : 0 < N)
    (wf : GatherDims.WF ⟨2, ![N, C]⟩ ⟨3, ![E, 2, 1]⟩ ⟨3, ![E, 2, C]⟩ [2] [0] [] [0] [] 2 ![1, C])
    (x : (⟨2, ![N, C]⟩ : Shape).Idx → α) (idx : IVec ⟨3, ![E, 2, 1]⟩ w) (e : Fin E) (p : Fin 2) (c : Fin C) :
    Host.gather (pairGather N E C wf) x idx (ix3 e p c)
      = x (ix2 (Cert.RowIndex.clampRow N hN (idx (ix3 e p (0 : Fin 1)))) c) := by
  unfold Host.gather
  congr 1
  funext a
  refine Fin.ext ?_
  match a with
  | ⟨0, _⟩ =>
    show (pairGather N E C wf).start (ix3 e p c) idx 0 + (pairGather N E C wf).batchCoord (ix3 e p c) 0
      + (pairGather N E C wf).offCoord (ix3 e p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (pairGather N E C wf).startIndexMap from List.mem_singleton.mpr rfl)]
    have hsi : (pairGather N E C wf).siIdx (ix3 e p c) ⟨List.idxOf (0 : Fin 2) (pairGather N E C wf).startIndexMap,
        List.idxOf_lt_length_iff.2 (List.mem_singleton.mpr rfl)⟩ = ix3 e p (0 : Fin 1) := by
      funext b; refine Fin.ext ?_
      match b with
      | ⟨0, _⟩ => rfl
      | ⟨1, _⟩ => rfl
      | ⟨2, _⟩ => rfl
    rw [hsi]
    rfl
  | ⟨1, _⟩ =>
    show (pairGather N E C wf).start (ix3 e p c) idx 1 + (pairGather N E C wf).batchCoord (ix3 e p c) 1
      + (pairGather N E C wf).offCoord (ix3 e p c) 1 = c.val
    rw [GatherDims.batchCoord_eq_zero _ _ _ List.not_mem_nil]
    have hst : (pairGather N E C wf).start (ix3 e p c) idx 1 = 0 := by
      unfold GatherDims.start
      rw [dif_neg (show (1 : Fin 2) ∉ (pairGather N E C wf).startIndexMap from
        fun h => absurd (congrArg Fin.val (List.mem_singleton.mp h)) Nat.one_ne_zero)]
    have hof : (pairGather N E C wf).offCoord (ix3 e p c) 1 = c.val := by
      unfold GatherDims.offCoord
      rw [dif_pos ((GatherDims.mem_sKept _ _).mpr
        ⟨fun h => absurd (congrArg Fin.val (List.mem_singleton.mp h)) Nat.one_ne_zero, List.not_mem_nil⟩)]
      rfl
    rw [hst, hof]
    omega

end Cert.EdgeRows

end
-- ==== Proof.EdgeRows.lean ====
/-
  The edge array's range.

  The precondition ends with two tests on the integer array `edge` of shape [800000, 2]: every entry is at least 0,
  and every entry is below 50001 (signed comparisons against a constant array, each folded by `and` over both axes).
  From the precondition being true we read, entry by entry, `0 ≤ edge i < 50001` as signed integers. Under that range
  the wrap of a negative index and the clamp of a start index are both the identity (the general lemma file beside
  this one).
-/
import proofs.«120566_j3040836846450_1_alg».proof.Pre_finite_inputs
import proofs.«120566_j3040836846450_1_alg».proof.Proof.Gen.Pre_finite_inputs
import proofs.«120566_j3040836846450_1_alg».proof.Proof.LibPairGather
import Idealize.ShloMosaic.Lib.ReduceAll
import Idealize.ShloMosaic.Lib.ValueIdx
import Idealize.ShloMosaic.PureOps.Ideal

noncomputable section

namespace Cert.EdgeRows

open Idealize.ShloMosaic Idealize.ShloMosaic.ValueIdx

/-- The rank-0 shape has one index. -/
instance : Subsingleton Cert.Pre_finite_inputs.S_.Idx := ⟨fun a b => funext fun d => d.elim0⟩

/-! ## The range of the edge array -/

/-- From the precondition: every entry of the edge array is in `[0, 50001)` as a signed integer. -/
theorem edge_range (x0 : IVec Cert.Pre_finite_inputs.S800000x2 32) (x1 : FVec Ideal Cert.Pre_finite_inputs.S50001x128 .f32)
    (x2 : FVec Ideal Cert.Pre_finite_inputs.S128x128 .f32) (x3 : FVec Ideal Cert.Pre_finite_inputs.S128 .f32)
    (x4 : FVec Ideal Cert.Pre_finite_inputs.S256x1 .f32) (x5 : FVec Ideal Cert.Pre_finite_inputs.S1 .f32)
    (h : Cert.Pre_finite_inputs.fn (F := Ideal) x0 x1 x2 x3 x4 x5 = fun _ => 1#1) :
    ∀ i : Cert.Pre_finite_inputs.S800000x2.Idx, 0 ≤ (x0 i).toInt ∧ (x0 i).toInt < 50001 := by
  intro i
  have h0 := congrFun h (fun d => d.elim0)
  dsimp only [Cert.Pre_finite_inputs.fn, Cert.Pre_finite_inputs.fn_part1] at h0
  obtain ⟨h1, hlt⟩ := IntOp.andi_eq_one.1 h0
  obtain ⟨_, hge⟩ := IntOp.andi_eq_one.1 h1
  have hge' := Host.reduce_andi_all _ _ _ _ _ hge i
  have hlt' := Host.reduce_andi_all _ _ _ _ _ hlt i
  have a : (0#32 : BitVec 32).toInt ≤ (x0 i).toInt := IntOp.cmpi_sge.1 hge'
  have b : (x0 i).toInt < (50001#32 : BitVec 32).toInt := IntOp.cmpi_slt.1 hlt'
  rw [show (0#32 : BitVec 32).toInt = 0 from by decide] at a
  rw [show (50001#32 : BitVec 32).toInt = 50001 from by decide] at b
  exact ⟨a, b⟩

end Cert.EdgeRows

end
-- ==== Proof.Spec.lean ====
/-
  The mathematics both programs compute, in one vocabulary: the node number of an edge's endpoint (the index word
  read as a signed integer, inside [0, 50001) by the precondition), a node's projected embedding (its table row
  against the weights' columns, plus the bias), and an edge's attention logit (the source's projected row against the
  first 128 attention weights, plus the destination's against the last 128, plus the attention bias).
-/
import Idealize.ShloMosaic.Lib.ValueIdx
import Idealize.ShloMosaic.PureOps.Ideal

open scoped BigOperators

noncomputable section

namespace Cert.Spec

open Idealize.ShloMosaic Idealize.ShloMosaic.ValueIdx

/-- Every index word is a node number. -/
def InRange (x0 : (⟨2, ![800000, 2]⟩ : Shape).Idx → BitVec 32) : Prop := ∀ i, 0 ≤ (x0 i).toInt ∧ (x0 i).toInt < 50001

/-- The node number of endpoint p (0 the source, 1 the destination) of edge e. -/
def node (x0 : (⟨2, ![800000, 2]⟩ : Shape).Idx → BitVec 32) (hE : InRange x0) (e : Fin 800000) (p : Fin 2) : Fin 50001 :=
  ⟨(x0 (ix2 e p)).toInt.toNat, by have := hE (ix2 e p); omega⟩

/-- Node n's projected embedding at feature f. -/
def proj (x1 : (⟨2, ![50001, 128]⟩ : Shape).Idx → EReal) (x2 : (⟨2, ![128, 128]⟩ : Shape).Idx → EReal)
    (x3 : (⟨1, ![128]⟩ : Shape).Idx → EReal) (n : Fin 50001) (f : Fin 128) : EReal :=
  (∑ k : Fin 128, x1 (ix2 n k) * x2 (ix2 k f)) + x3 (ix1 f)

/-- Edge e's attention logit. -/
def logit (x0 : (⟨2, ![800000, 2]⟩ : Shape).Idx → BitVec 32) (hE : InRange x0)
    (x1 : (⟨2, ![50001, 128]⟩ : Shape).Idx → EReal) (x2 : (⟨2, ![128, 128]⟩ : Shape).Idx → EReal)
    (x3 : (⟨1, ![128]⟩ : Shape).Idx → EReal) (x4 : (⟨2, ![256, 1]⟩ : Shape).Idx → EReal)
    (x5 : (⟨1, ![1]⟩ : Shape).Idx → EReal) (e : Fin 800000) : EReal :=
  ((∑ d : Fin 128, proj x1 x2 x3 (node x0 hE e 0) d * x4 (ix2 (⟨d.val, by omega⟩ : Fin 256) (0 : Fin 1)))
    + (∑ d : Fin 128, proj x1 x2 x3 (node x0 hE e 1) d * x4 (ix2 (⟨128 + d.val, by omega⟩ : Fin 256) (0 : Fin 1))))
    + x5 (ix1 (0 : Fin 1))

end Cert.Spec

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.KernelAtIndex.lean ====
/-
  The kernel program's host-side stages read at an index, in the vocabulary of the specification.

  The two endpoint columns of the edge array are its entries (e, 0) and (e, 1). The projected table at a row below
  50001 is the node's projected embedding: the 175 padding rows lie below the table, so the padded table there is the
  table, and the bias row's entry (0, f) is the bias at f. A row gather through an index column whose signed values lie
  in [0, 50176) reads the row of that number: the wrap of negative numbers and the clamp into the table are both the
  identity there. So the gathered source and destination rows of edge e are the projected embeddings of its two
  endpoint nodes, and the flat score of edge e is the score of its attention logit: the first 128 attention weights
  against the source's row, the last 128 against the destination's, plus the attention bias.
-/
import proofs.«120566_j3040836846450_1_alg».proof.Proof.KernelStages
import proofs.«120566_j3040836846450_1_alg».proof.Proof.EdgeRows
import proofs.«120566_j3040836846450_1_alg».proof.Proof.Spec
import proofs.«120566_j3040836846450_1_alg».proof.Proof.LibBroadcastInDim
import proofs.«120566_j3040836846450_1_alg».proof.Proof.LibColumnLayout
import Idealize.ShloMosaic.Lib.KernelVsHost
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelAtIndex

open Cert.KernelIdeal Cert.KernelIdeal.Gen Cert.KernelIdeal.Arrays Cert.KernelIdeal.Stages Cert.Spec
open Idealize.ShloMosaic Idealize.ShloMosaic.ValueIdx

/-! ## The endpoint columns -/

/-- The source column at edge e is the edge array's entry (e, 0). -/
theorem src_apply (x0 : Stages.Edges) (e : Fin 800000) : src x0 (ix1 e) = x0 (ix2 e (0 : Fin 2)) := by
  unfold src
  refine (Cert.ColumnLayout.shapeCast_a1_a_apply _ shapeCasts_S800000x1_S800000 e).trans ?_
  exact slice2_axis1_apply 0 x0 slices_S800000x2_S800000x1_0_0 e (0 : Fin 1) (0 : Fin 2) rfl

/-- The destination column at edge e is the edge array's entry (e, 1). -/
theorem dst_apply (x0 : Stages.Edges) (e : Fin 800000) : dst x0 (ix1 e) = x0 (ix2 e (1 : Fin 2)) := by
  unfold dst
  refine (Cert.ColumnLayout.shapeCast_a1_a_apply _ shapeCasts_S800000x1_S800000 e).trans ?_
  exact slice2_axis1_apply 1 x0 slices_S800000x2_S800000x1_0_1 e (0 : Fin 1) (1 : Fin 2) rfl

/-! ## The projected table -/

/-- The padded table at a row below 50001 is the table. -/
theorem tablePad_apply (x1 : Stages.Table) (n : Fin 50001) (k : Fin 128) :
    tablePad x1 (ix2 (⟨n.val, by omega⟩ : Fin 50176) k) = x1 (ix2 n k) := by
  unfold tablePad
  exact pad_apply_of_inside _ _ _ x1 _ pads_S50001x128_S50176x128_01750_000 h_S_ _ (ix2 n k) (fun a => by
    match a with
    | ⟨0, _⟩ => show n.val = 0 + n.val * (0 + 1); omega
    | ⟨1, _⟩ => show k.val = 0 + k.val * (0 + 1); omega)

/-- The bias row's entry (0, f) is the bias at f. -/
theorem biasRow_apply (x3 : Stages.Bias) (f : Fin 128) : biasRow x3 (ix2 (0 : Fin 1) f) = x3 (ix1 f) := by
  unfold biasRow
  exact shapeCast_a_1a_apply x3 shapeCasts_S128_S1x128 (0 : Fin 1) f

/-- The projected table at node n's row is node n's projected embedding. -/
theorem item_apply (x1 : Stages.Table) (x2 : Stages.Weights) (x3 : Stages.Bias) (n : Fin 50001) (f : Fin 128) :
    item x1 x2 x3 (ix2 (⟨n.val, by omega⟩ : Fin 50176) f) = proj x1 x2 x3 n f := by
  unfold item
  refine (itemOf_ix2 _ _ _ _ f).trans ?_
  unfold proj
  exact congrArg₂ (· + ·)
    (Finset.sum_congr rfl fun k _ => congrArg (· * x2 (ix2 k f)) (tablePad_apply x1 n k))
    (biasRow_apply x3 f)

/-- The same at any row whose number is the node's. -/
theorem item_apply_of_val (x1 : Stages.Table) (x2 : Stages.Weights) (x3 : Stages.Bias) (r : Fin 50176) (n : Fin 50001)
    (h : r.val = n.val) (f : Fin 128) : item x1 x2 x3 (ix2 r f) = proj x1 x2 x3 n f := by
  have hr : r = (⟨n.val, by omega⟩ : Fin 50176) := Fin.ext h
  rw [hr]
  exact item_apply x1 x2 x3 n f

/-! ## The row gather -/

/-- The all-zero index array reads zero everywhere. -/
theorem zeros_apply (j : S800000.Idx) :
    broadcastInDim S800000 ![] bcast_S_S800000 (constantI S_ 32 0#32) j = 0#32 :=
  Cert.BroadcastInDim.scalar_apply (constantI S_ 32 0#32) bcast_S_S800000 j

/-- The wrapped node numbers, placed as a column, read the node number itself where it is not negative. -/
theorem wrapColumn_apply (i : Stages.Ends) (e : Fin 800000) (h0 : 0 ≤ (i (ix1 e)).toInt) :
    broadcastInDim S800000x1 ![0] bcast_S800000_S800000x1_0 (wrapPadded i) (ix2 e (0 : Fin 1)) = i (ix1 e) := by
  refine (Cert.BroadcastInDim.column_apply (wrapPadded i) bcast_S800000_S800000x1_0 e (0 : Fin 1)).trans ?_
  unfold wrapPadded
  exact Cert.EdgeRows.wrap_of_nonneg i _ _ zeros_apply (ix1 e) h0

/-- The rows of a padded table at node numbers in [0, 50176): at (e, f) the table's row of that number at f. -/
theorem rowsAt_apply (X : Stages.Padded) (i : Stages.Ends) (e : Fin 800000) (f : Fin 128) (h0 : 0 ≤ (i (ix1 e)).toInt)
    (h1 : (i (ix1 e)).toInt < 50176) :
    rowsAt X i (ix2 e f) = X (ix2 (⟨(i (ix1 e)).toInt.toNat, by omega⟩ : Fin 50176) f) := by
  unfold rowsAt
  show Host.gather (Cert.RowIndex.rowGather 50176 800000 128 gather_S50176x128_S800000x1_S800000x128_1_0_n_n_0_1_1128_wf) X
    (broadcastInDim S800000x1 ![0] bcast_S800000_S800000x1_0 (wrapPadded i)) (ix2 e f) = _
  refine (Cert.RowIndex.gather_rows_apply (by decide : 0 < 50176) gather_S50176x128_S800000x1_S800000x128_1_0_n_n_0_1_1128_wf X _ e f).trans ?_
  refine congrArg (fun r => X (ix2 r f)) (Fin.ext ?_)
  rw [wrapColumn_apply i e h0]
  exact Cert.EdgeRows.clampRow_val_of_range (by decide) _ h0 h1

/-- The gathered source rows are the projected embeddings of the edges' source nodes. -/
theorem srcRows_apply (x0 : Stages.Edges) (hE : InRange x0) (x1 : Stages.Table) (x2 : Stages.Weights) (x3 : Stages.Bias)
    (e : Fin 800000) (f : Fin 128) :
    rowsAt (item x1 x2 x3) (src x0) (ix2 e f) = proj x1 x2 x3 (node x0 hE e 0) f := by
  have hs := src_apply x0 e
  have hr := hE (ix2 e (0 : Fin 2))
  have h0 : 0 ≤ (src x0 (ix1 e)).toInt := by rw [hs]; exact hr.1
  have h1 : (src x0 (ix1 e)).toInt < 50176 := by rw [hs]; have := hr.2; omega
  refine (rowsAt_apply _ _ e f h0 h1).trans ?_
  exact item_apply_of_val x1 x2 x3 _ (node x0 hE e 0) (congrArg (fun b : BitVec 32 => b.toInt.toNat) hs) f

/-- The gathered destination rows are the projected embeddings of the edges' destination nodes. -/
theorem dstRows_apply (x0 : Stages.Edges) (hE : InRange x0) (x1 : Stages.Table) (x2 : Stages.Weights) (x3 : Stages.Bias)
    (e : Fin 800000) (f : Fin 128) :
    rowsAt (item x1 x2 x3) (dst x0) (ix2 e f) = proj x1 x2 x3 (node x0 hE e 1) f := by
  have hs := dst_apply x0 e
  have hr := hE (ix2 e (1 : Fin 2))
  have h0 : 0 ≤ (dst x0 (ix1 e)).toInt := by rw [hs]; exact hr.1
  have h1 : (dst x0 (ix1 e)).toInt < 50176 := by rw [hs]; have := hr.2; omega
  refine (rowsAt_apply _ _ e f h0 h1).trans ?_
  exact item_apply_of_val x1 x2 x3 _ (node x0 hE e 1) (congrArg (fun b : BitVec 32 => b.toInt.toNat) hs) f

/-! ## The scores -/

/-- The first half of the attention weights as a row: entry (0, k) is weight k. -/
theorem attSrc_apply (x4 : Stages.AttW) (k : Fin 128) :
    attSrc x4 (ix2 (0 : Fin 1) k) = x4 (ix2 (⟨k.val, by omega⟩ : Fin 256) (0 : Fin 1)) := by
  unfold attSrc
  refine (shapeCast_a_1a_apply _ shapeCasts_S128_S1x128 (0 : Fin 1) k).trans ?_
  refine (Cert.ColumnLayout.shapeCast_a1_a_apply _ shapeCasts_S128x1_S128 k).trans ?_
  exact slice2_axis0_apply 0 x4 slices_S256x1_S128x1_0_0 k (0 : Fin 1) (⟨k.val, by omega⟩ : Fin 256) (Nat.zero_add _).symm

/-- The second half of the attention weights as a row: entry (0, k) is weight 128 + k. -/
theorem attDst_apply (x4 : Stages.AttW) (k : Fin 128) :
    attDst x4 (ix2 (0 : Fin 1) k) = x4 (ix2 (⟨128 + k.val, by omega⟩ : Fin 256) (0 : Fin 1)) := by
  unfold attDst
  refine (shapeCast_a_1a_apply _ shapeCasts_S128_S1x128 (0 : Fin 1) k).trans ?_
  refine (Cert.ColumnLayout.shapeCast_a1_a_apply _ shapeCasts_S128x1_S128 k).trans ?_
  exact slice2_axis0_apply 128 x4 slices_S256x1_S128x1_128_0 k (0 : Fin 1) (⟨128 + k.val, by omega⟩ : Fin 256) rfl

/-- The attention bias as a [1, 1] array reads the bias. -/
theorem attBias_apply (x5 : Stages.AttB) : attBias x5 (ix2 (0 : Fin 1) (0 : Fin 1)) = x5 (ix1 (0 : Fin 1)) := by
  unfold attBias
  exact shapeCast_a_1a_apply x5 shapeCasts_S1_S1x1 (0 : Fin 1) (0 : Fin 1)

/-- The flat score of edge e is the score of its attention logit. -/
theorem scores_apply (x0 : Stages.Edges) (hE : InRange x0) (x1 : Stages.Table) (x2 : Stages.Weights) (x3 : Stages.Bias)
    (x4 : Stages.AttW) (x5 : Stages.AttB) (e : Fin 800000) :
    scores x0 x1 x2 x3 x4 x5 (ix1 e) = Cert.KernelIdeal.Payloads.scoreOf (logit x0 hE x1 x2 x3 x4 x5 e) := by
  unfold scores
  refine (Cert.ColumnLayout.shapeCast_a1_a_apply _ shapeCasts_S800000x1_S800000 e).trans ?_
  refine (scoresOf_ix2 _ _ _ _ _ e).trans ?_
  refine congrArg Cert.KernelIdeal.Payloads.scoreOf ?_
  unfold logit
  exact congrArg₂ (· + ·)
    (congrArg₂ (· + ·)
      (Finset.sum_congr rfl fun k _ => congrArg₂ (· * ·) (srcRows_apply x0 hE x1 x2 x3 e k) (attSrc_apply x4 k))
      (Finset.sum_congr rfl fun k _ => congrArg₂ (· * ·) (dstRows_apply x0 hE x1 x2 x3 e k) (attDst_apply x4 k)))
    (attBias_apply x5)

end Cert.KernelAtIndex

end
-- ==== Proof.LibBlockSplit.lean ====
/-
  Splitting a finite sum over `Fin N` into `k` consecutive blocks of `m` terms each, `N = k * m`.

  `sum_blocks` proves: for `f : Fin N → M` in an additive commutative monoid and any family
  `row : Fin k → Fin m → Fin N` with `(row b r).val = m * b + r`,
  `∑ i, f i = ∑ b : Fin k, ∑ r : Fin m, f (row b r)`.
  `sum_blocks_two` and `sum_blocks_four` write the outer sum out for `k = 2` and `k = 4`.
  The sums over the blocks stay symbolic throughout: nothing is expanded into its terms.
-/
import Mathlib.Algebra.BigOperators.Fin
import Mathlib.Logic.Equiv.Fin.Basic

open scoped BigOperators

namespace Cert.Lib

/-- A sum over `Fin N`, `N = k * m`, is the sum over the `k` blocks of the sums over each block's `m` rows. -/
theorem sum_blocks {M : Type*} [AddCommMonoid M] (k m N : Nat) (hN : k * m = N) (f : Fin N → M)
    (row : Fin k → Fin m → Fin N) (hrow : ∀ b r, (row b r).val = m * b.val + r.val) :
    ∑ i, f i = ∑ b : Fin k, ∑ r : Fin m, f (row b r) := by
  subst hN
  rw [← Equiv.sum_comp (finProdFinEquiv (m := k) (n := m)) f, Fintype.sum_prod_type]
  refine Finset.sum_congr rfl fun b _ => Finset.sum_congr rfl fun r _ => congrArg f ?_
  apply Fin.ext
  rw [hrow]
  simp [finProdFinEquiv, Nat.add_comm]

/-- Two blocks. -/
theorem sum_blocks_two {M : Type*} [AddCommMonoid M] (m N : Nat) (hN : 2 * m = N) (f : Fin N → M)
    (row : Fin 2 → Fin m → Fin N) (hrow : ∀ b r, (row b r).val = m * b.val + r.val) :
    ∑ i, f i = (∑ r : Fin m, f (row 0 r)) + ∑ r : Fin m, f (row 1 r) := by
  rw [sum_blocks 2 m N hN f row hrow, Fin.sum_univ_two]

/-- Four blocks. -/
theorem sum_blocks_four {M : Type*} [AddCommMonoid M] (m N : Nat) (hN : 4 * m = N) (f : Fin N → M)
    (row : Fin 4 → Fin m → Fin N) (hrow : ∀ b r, (row b r).val = m * b.val + r.val) :
    ∑ i, f i = (∑ r : Fin m, f (row 0 r)) + (∑ r : Fin m, f (row 1 r))
      + (∑ r : Fin m, f (row 2 r)) + ∑ r : Fin m, f (row 3 r) := by
  rw [sum_blocks 4 m N hN f row hrow, Fin.sum_univ_four]

end Cert.Lib
-- ==== Proof.RefStages.lean ====
/-
  The reference program's stages, read at an index, in the vocabulary both programs share.

  The projected table (the table against the weights plus the bias) at `(n, f)` is node `n`'s projected embedding
  at feature `f`. Under the range of the edge array the wrap of negative indices and the gather's clamp are the
  identity, so the gathered rows are the rows of the edges' endpoints: the destination rows of the projected table at
  `(e, f)` are the projected embedding of edge `e`'s destination; the projected pair rows at `(e, p, d)` are the
  projected embedding of endpoint `p` of edge `e`. The attention logit of edge `e` is the 256-term product of the
  reshaped pair rows with the attention weights, which splits into the source's 128 terms and the destination's 128
  terms, plus the attention bias; the score is the logit through leaky-relu(0.2), minus one, exponential.
-/
import proofs.«120566_j3040836846450_1_alg».proof.Proof.Gen.ReferenceIdeal.Read
import proofs.«120566_j3040836846450_1_alg».proof.Proof.EdgeRows
import proofs.«120566_j3040836846450_1_alg».proof.Proof.Spec
import proofs.«120566_j3040836846450_1_alg».proof.Proof.Payloads
import proofs.«120566_j3040836846450_1_alg».proof.Proof.LibBlockSplit
import proofs.«120566_j3040836846450_1_alg».proof.Proof.LibBroadcastInDim
import Idealize.ShloMosaic.Lib.ValueIdx
import Idealize.ShloMosaic.Lib.Pipeline.Value
import Idealize.ShloMosaic.PureOps.Ideal.Laws

open scoped BigOperators

noncomputable section

namespace Cert.RefStages

open Cert.ReferenceIdeal Cert.ReferenceIdeal.Gen Cert.ReferenceIdeal.Read Cert.Spec Idealize.ShloMosaic Idealize.ShloMosaic.ValueIdx

/-! ## The projected table -/

/-- The projected table at `(n, f)`: node `n`'s row against column `f` of the weights, plus the bias at `f`. -/
theorem item_apply (x1 : (⟨S50001x128, .f32⟩ : BufTy).Contents (Elt Ideal)) (x2 : (⟨S128x128, .f32⟩ : BufTy).Contents (Elt Ideal)) (x3 : (⟨S128, .f32⟩ : BufTy).Contents (Elt Ideal)) (n : Fin 50001) (f : Fin 128) :
    val_main_v43 (F := Ideal) x1 x2 x3 (ix2 n f) = proj x1 x2 x3 n f := by
  rw [val_main_v43_apply, val_main_v40_apply, val_main_v42_apply, val_main_v41_apply]
  unfold proj
  have hl : ∀ k : Fin 128, lidx_main_v40 (ix2 n f) k = ix2 n k := fun k => funext fun a => Fin.ext (by
    match a with | ⟨0, _⟩ => rfl | ⟨1, _⟩ => rfl)
  have hr : ∀ k : Fin 128, ridx_main_v40 (ix2 n f) k = ix2 k f := fun k => funext fun a => Fin.ext (by
    match a with | ⟨0, _⟩ => rfl | ⟨1, _⟩ => rfl)
  have hb : idx_main_v41 (idx_main_v42 (ix2 n f)) = ix1 f := funext fun a => Fin.ext (by
    match a with | ⟨0, _⟩ => rfl)
  rw [hb]
  refine congrArg₂ (· + ·) (Finset.sum_congr rfl fun k _ => ?_) rfl
  rw [hl k, hr k]

/-! ## The destination rows of the projected table -/

/-- The destination column of the edge array, as a flat array, at `e`. -/
theorem dstWord_apply (x0 : (⟨S800000x2, .i32⟩ : BufTy).Contents (Elt Ideal)) (e : Fin 800000) :
    val_main_v3 (F := Ideal) x0 (ix1 e) = x0 (ix2 e (1 : Fin 2)) := by
  rw [val_main_v3_apply, val_main_v2_apply]
  refine congrArg x0 (funext fun a => Fin.ext ?_)
  match a with
  | ⟨0, _⟩ => exact Nat.div_one _
  | ⟨1, _⟩ => rfl

/-- The wrapped destination index column at `(e, 0)` is the destination word itself, in range. -/
theorem dstIndex_apply (x0 : (⟨S800000x2, .i32⟩ : BufTy).Contents (Elt Ideal)) (hE : InRange x0) (e : Fin 800000) :
    val_main_v50 (F := Ideal) x0 (ix2 e (0 : Fin 1)) = x0 (ix2 e (1 : Fin 2)) := by
  rw [val_main_v50_apply]
  have hi : idx_main_v50 (ix2 e (0 : Fin 1)) = ix1 e := funext fun a => Fin.ext (by
    match a with | ⟨0, _⟩ => rfl)
  rw [hi]
  have hz : ∀ i, val_main_v45 (F := Ideal) i = 0#32 := fun i => by rw [val_main_v45_apply]; rfl
  have h0 : 0 ≤ (val_main_v3 (F := Ideal) x0 (ix1 e)).toInt := by
    rw [dstWord_apply]; exact (hE _).1
  exact (Cert.EdgeRows.wrap_of_nonneg (val_main_v3 (F := Ideal) x0) (val_main_v45 (F := Ideal))
    (val_main_v47 (F := Ideal)) hz (ix1 e) h0).trans (dstWord_apply x0 e)

/-- A word in range, clamped into `[0, 50000]`, is the node it names. -/
theorem clampRow_eq_node (x0 : (⟨S800000x2, .i32⟩ : BufTy).Contents (Elt Ideal)) (hE : InRange x0) (e : Fin 800000) (p : Fin 2) :
    Cert.RowIndex.clampRow 50001 (by decide) (x0 (ix2 e p)) = node x0 hE e p :=
  Fin.ext (Cert.EdgeRows.clampRow_val_of_range (by decide) _ (hE _).1 (by have := (hE (ix2 e p)).2; omega))

/-- The gathered destination rows at `(e, f)`: the projected embedding of edge `e`'s destination at feature `f`. -/
theorem dstRows_apply (x0 : (⟨S800000x2, .i32⟩ : BufTy).Contents (Elt Ideal)) (hE : InRange x0) (x1 : (⟨S50001x128, .f32⟩ : BufTy).Contents (Elt Ideal)) (x2 : (⟨S128x128, .f32⟩ : BufTy).Contents (Elt Ideal)) (x3 : (⟨S128, .f32⟩ : BufTy).Contents (Elt Ideal)) (e : Fin 800000) (f : Fin 128) :
    val_main_v51 (F := Ideal) x0 x1 x2 x3 (ix2 e f) = proj x1 x2 x3 (node x0 hE e 1) f := by
  unfold val_main_v51
  refine (Cert.RowIndex.gather_rows_apply (N := 50001) (E := 800000) (C := 128) (by decide)
    gather_S50001x128_S800000x1_S800000x128_1_0_n_n_0_1_1128_wf
    (val_main_v43 (F := Ideal) x1 x2 x3) (val_main_v50 (F := Ideal) x0) e f).trans ?_
  rw [dstIndex_apply x0 hE, clampRow_eq_node x0 hE, item_apply]

/-! ## The projected rows of both endpoints -/

/-- The wrapped edge array, as the gather's index array, at `(e, p, 0)` is the word itself, in range. -/
theorem pairIndex_apply (x0 : (⟨S800000x2, .i32⟩ : BufTy).Contents (Elt Ideal)) (hE : InRange x0) (e : Fin 800000) (p : Fin 2) :
    val_main_v9 (F := Ideal) x0 (ix3 e p (0 : Fin 1)) = x0 (ix2 e p) := by
  rw [val_main_v9_apply]
  have hi : idx_main_v9 (ix3 e p (0 : Fin 1)) = ix2 e p := funext fun a => Fin.ext (by
    match a with | ⟨0, _⟩ => rfl | ⟨1, _⟩ => rfl)
  rw [hi]
  have hz : ∀ i, val_main_v4 (F := Ideal) i = 0#32 := fun i => by rw [val_main_v4_apply]; rfl
  exact Cert.EdgeRows.wrap_of_nonneg x0 (val_main_v4 (F := Ideal)) (val_main_v6 (F := Ideal)) hz (ix2 e p) (hE _).1

/-- The gathered table rows at `(e, p, k)`: the table row of endpoint `p` of edge `e`. -/
theorem pairTable_apply (x0 : (⟨S800000x2, .i32⟩ : BufTy).Contents (Elt Ideal)) (hE : InRange x0) (x1 : (⟨S50001x128, .f32⟩ : BufTy).Contents (Elt Ideal)) (e : Fin 800000) (p : Fin 2) (k : Fin 128) :
    val_main_v10 (F := Ideal) x0 x1 (ix3 e p k) = x1 (ix2 (node x0 hE e p) k) := by
  unfold val_main_v10
  refine (Cert.EdgeRows.gather_pair_rows_apply (N := 50001) (E := 800000) (C := 128) (by decide)
    gather_S50001x128_S800000x2x1_S800000x2x128_2_0_n_n_0_2_1128_wf
    x1 (val_main_v9 (F := Ideal) x0) e p k).trans ?_
  rw [pairIndex_apply x0 hE, clampRow_eq_node x0 hE]

/-- The projected pair rows at `(e, p, d)`: the projected embedding of endpoint `p` of edge `e` at feature `d`. -/
theorem pairRows_apply (x0 : (⟨S800000x2, .i32⟩ : BufTy).Contents (Elt Ideal)) (hE : InRange x0) (x1 : (⟨S50001x128, .f32⟩ : BufTy).Contents (Elt Ideal)) (x2 : (⟨S128x128, .f32⟩ : BufTy).Contents (Elt Ideal)) (x3 : (⟨S128, .f32⟩ : BufTy).Contents (Elt Ideal)) (e : Fin 800000) (p : Fin 2) (d : Fin 128) :
    val_main_v14 (F := Ideal) x0 x1 x2 x3 (ix3 e p d) = proj x1 x2 x3 (node x0 hE e p) d := by
  rw [val_main_v14_apply, val_main_v11_apply, val_main_v13_apply, val_main_v12_apply]
  unfold proj
  have hl : ∀ k : Fin 128, lidx_main_v11 (ix3 e p d) k = ix3 e p k := fun k => funext fun a => Fin.ext (by
    match a with | ⟨0, _⟩ => rfl | ⟨1, _⟩ => rfl | ⟨2, _⟩ => rfl)
  have hr : ∀ k : Fin 128, ridx_main_v11 (ix3 e p d) k = ix2 k d := fun k => funext fun a => Fin.ext (by
    match a with | ⟨0, _⟩ => rfl | ⟨1, _⟩ => rfl)
  have hb : idx_main_v12 (idx_main_v13 (ix3 e p d)) = ix1 d := funext fun a => Fin.ext (by
    match a with | ⟨0, _⟩ => rfl)
  rw [hb]
  refine congrArg₂ (· + ·) (Finset.sum_congr rfl fun k _ => ?_) rfl
  rw [hl k, hr k, pairTable_apply x0 hE]

/-! ## The attention logit and the score -/

/-- The reshaped pair rows at `(e, 128 b + r)` are the pair rows at `(e, b, r)`. -/
theorem flatRows_apply (x0 : (⟨S800000x2, .i32⟩ : BufTy).Contents (Elt Ideal)) (x1 : (⟨S50001x128, .f32⟩ : BufTy).Contents (Elt Ideal)) (x2 : (⟨S128x128, .f32⟩ : BufTy).Contents (Elt Ideal)) (x3 : (⟨S128, .f32⟩ : BufTy).Contents (Elt Ideal)) (e : Fin 800000) (b : Fin 2) (r : Fin 128) (k : Fin 256)
    (hk : k.val = 128 * b.val + r.val) :
    val_main_v15 (F := Ideal) x0 x1 x2 x3 (ix2 e k) = val_main_v14 (F := Ideal) x0 x1 x2 x3 (ix3 e b r) := by
  rw [val_main_v15_apply]
  refine congrArg _ (funext fun a => Fin.ext ?_)
  have hb := b.isLt
  have hr := r.isLt
  match a with
  | ⟨0, _⟩ => show (e.val * 256 + k.val) / 256 = e.val; omega
  | ⟨1, _⟩ => show (e.val * 256 + k.val) / 128 % 2 = b.val; omega
  | ⟨2, _⟩ => show (e.val * 256 + k.val) % 128 = r.val; omega

/-- The attention logit column at `(e, 0)`: the source's 128 terms, the destination's 128 terms, the bias. -/
theorem logit_apply (x0 : (⟨S800000x2, .i32⟩ : BufTy).Contents (Elt Ideal)) (hE : InRange x0) (x1 : (⟨S50001x128, .f32⟩ : BufTy).Contents (Elt Ideal)) (x2 : (⟨S128x128, .f32⟩ : BufTy).Contents (Elt Ideal)) (x3 : (⟨S128, .f32⟩ : BufTy).Contents (Elt Ideal)) (x4 : (⟨S256x1, .f32⟩ : BufTy).Contents (Elt Ideal)) (x5 : (⟨S1, .f32⟩ : BufTy).Contents (Elt Ideal)) (e : Fin 800000) :
    val_main_v19 (F := Ideal) x0 x1 x2 x3 x4 x5 (ix2 e (0 : Fin 1)) = logit x0 hE x1 x2 x3 x4 x5 e := by
  rw [val_main_v19_apply, val_main_v16_apply, val_main_v18_apply, val_main_v17_apply]
  unfold logit
  have hb : idx_main_v17 (idx_main_v18 (ix2 e (0 : Fin 1))) = ix1 (0 : Fin 1) := funext fun a => Fin.ext (by
    match a with | ⟨0, _⟩ => rfl)
  rw [hb]
  refine congrArg₂ (· + ·) ?_ rfl
  have hl : ∀ k : Fin 256, lidx_main_v16 (ix2 e (0 : Fin 1)) k = ix2 e k := fun k => funext fun a => Fin.ext (by
    match a with | ⟨0, _⟩ => rfl | ⟨1, _⟩ => rfl)
  have hr : ∀ k : Fin 256, ridx_main_v16 (ix2 e (0 : Fin 1)) k = ix2 k (0 : Fin 1) := fun k => funext fun a => Fin.ext (by
    match a with | ⟨0, _⟩ => rfl | ⟨1, _⟩ => rfl)
  rw [Cert.Lib.sum_blocks_two 128 256 rfl _ (fun b r => (⟨128 * b.val + r.val, by omega⟩ : Fin 256)) (fun b r => rfl)]
  refine congrArg₂ (· + ·) (Finset.sum_congr rfl fun r _ => ?_) (Finset.sum_congr rfl fun r _ => ?_)
  · rw [hl, hr, flatRows_apply x0 x1 x2 x3 e 0 r _ rfl, pairRows_apply x0 hE]
    refine congrArg (fun k : Fin 256 => proj x1 x2 x3 (node x0 hE e 0) r * x4 (ix2 k (0 : Fin 1))) (Fin.ext ?_)
    show 128 * 0 + r.val = r.val
    omega
  · rw [hl, hr, flatRows_apply x0 x1 x2 x3 e 1 r _ rfl, pairRows_apply x0 hE]
    refine congrArg (fun k : Fin 256 => proj x1 x2 x3 (node x0 hE e 1) r * x4 (ix2 k (0 : Fin 1))) (Fin.ext ?_)
    show 128 * 1 + r.val = 128 + r.val
    omega

/-- The scores at `e`: the logit through leaky-relu(0.2), minus one, exponential. -/
theorem scores_apply (x0 : (⟨S800000x2, .i32⟩ : BufTy).Contents (Elt Ideal)) (hE : InRange x0) (x1 : (⟨S50001x128, .f32⟩ : BufTy).Contents (Elt Ideal)) (x2 : (⟨S128x128, .f32⟩ : BufTy).Contents (Elt Ideal)) (x3 : (⟨S128, .f32⟩ : BufTy).Contents (Elt Ideal)) (x4 : (⟨S256x1, .f32⟩ : BufTy).Contents (Elt Ideal)) (x5 : (⟨S1, .f32⟩ : BufTy).Contents (Elt Ideal)) (e : Fin 800000) :
    val_main_v28 (F := Ideal) x0 x1 x2 x3 x4 x5 (ix1 e) = Cert.KernelIdeal.Payloads.scoreOf (logit x0 hE x1 x2 x3 x4 x5 e) := by
  rw [val_main_v28_apply, val_main_v27_apply, val_main_v25_apply, val_main_v26_apply]
  have hi : idx_main_v25 (ix1 e) = ix2 e (0 : Fin 1) := funext fun a => Fin.ext (by
    match a with
    | ⟨0, _⟩ => exact Nat.div_one _
    | ⟨1, _⟩ => rfl)
  rw [hi, val_main_v24_apply, val_main_v21_apply, val_main_v23_apply, val_main_v20_apply, val_main_v22_apply,
    logit_apply x0 hE]
  rfl

end Cert.RefStages

end
-- ==== Proof.Bridge.lean ====
/-
  The two idealized programs compute one function of the arguments, when every index word is a node number.
  Stage by stage: the edge scores agree entry by entry (both are the score of the edge's attention logit) and so do the
  destinations' projected rows; the normalisation, the messages and the aggregation are then the same host operations
  applied to equal arrays; and the kernel's logistic function of the padded aggregate, cut back to 50001 rows, is the
  reference's 1 / (1 + exp (−a)) entry by entry, because on the extended reals the logistic function IS that expression.
-/
import proofs.«120566_j3040836846450_1_alg».proof.Proof.KernelStages
import proofs.«120566_j3040836846450_1_alg».proof.Proof.KernelAtIndex
import proofs.«120566_j3040836846450_1_alg».proof.Proof.RefStages
import proofs.«120566_j3040836846450_1_alg».proof.Proof.LibColumnLayout
import Idealize.ShloMosaic.Lib.KernelVsHost
import Idealize.ShloMosaic.Lib.IdealHost

set_option maxRecDepth 16384

noncomputable section

namespace Cert.Bridge

open Idealize.ShloMosaic Idealize.ShloMosaic.ValueIdx Cert.Spec
open Cert.KernelIdeal.Stages

variable (x0 : Edges) (x1 : Cert.KernelIdeal.Stages.Table) (x2 : Weights) (x3 : Bias) (x4 : AttW) (x5 : AttB)

/-- The edge scores agree. -/
theorem scores_eq (hE : InRange x0) : scores x0 x1 x2 x3 x4 x5 = Cert.ReferenceIdeal.Read.val_main_v28 (F := Ideal) x0 x1 x2 x3 x4 x5 := by
  funext i
  obtain ⟨e, rfl⟩ : ∃ e : Fin 800000, i = ix1 e := ⟨i 0, eq_ix1 i⟩
  rw [Cert.KernelAtIndex.scores_apply x0 hE x1 x2 x3 x4 x5 e, Cert.RefStages.scores_apply x0 hE x1 x2 x3 x4 x5 e]

/-- The destinations' projected rows agree. -/
theorem dstRows_eq (hE : InRange x0) : rowsAt (item x1 x2 x3) (dst x0) = Cert.ReferenceIdeal.Read.val_main_v51 (F := Ideal) x0 x1 x2 x3 := by
  funext i
  obtain ⟨e, f, rfl⟩ : ∃ (e : Fin 800000) (f : Fin 128), i = ix2 e f := ⟨i 0, i 1, eq_ix2 i⟩
  rw [Cert.KernelAtIndex.dstRows_apply x0 hE x1 x2 x3 e f, Cert.RefStages.dstRows_apply x0 hE x1 x2 x3 e f]

/-- The normalisation is the same host operations on both sides. -/
theorem normalised_eq : normalised x0 (Cert.ReferenceIdeal.Read.val_main_v28 (F := Ideal) x0 x1 x2 x3 x4 x5)
    = Cert.ReferenceIdeal.Read.val_main_v39 (F := Ideal) x0 x1 x2 x3 x4 x5 := by
  unfold normalised src Cert.ReferenceIdeal.Read.val_main_v39 Cert.ReferenceIdeal.Read.val_main_v38 Cert.ReferenceIdeal.Read.val_main_v31
    Cert.ReferenceIdeal.Read.val_main_v37 Cert.ReferenceIdeal.Read.val_main_v36 Cert.ReferenceIdeal.Read.val_main_v35 Cert.ReferenceIdeal.Read.val_main_v34
    Cert.ReferenceIdeal.Read.val_main_c_5 Cert.ReferenceIdeal.Read.val_main_v33 Cert.ReferenceIdeal.Read.val_main_v32 Cert.ReferenceIdeal.Read.val_main_c_4
    Cert.ReferenceIdeal.Read.val_main_v30 Cert.ReferenceIdeal.Read.val_main_v29 Cert.ReferenceIdeal.Read.val_main_cst_3 Cert.ReferenceIdeal.Read.val_main_v1
    Cert.ReferenceIdeal.Read.val_main_v0
  rfl

/-- The messages agree. -/
theorem msgs_eq (hE : InRange x0) : msgs x0 x1 x2 x3 (Cert.ReferenceIdeal.Read.val_main_v39 (F := Ideal) x0 x1 x2 x3 x4 x5)
    = Cert.ReferenceIdeal.Read.val_main_v53 (F := Ideal) x0 x1 x2 x3 x4 x5 := by
  unfold msgs
  rw [dstRows_eq x0 x1 x2 x3 hE]
  funext i
  obtain ⟨e, f, rfl⟩ : ∃ (e : Fin 800000) (f : Fin 128), i = ix2 e f := ⟨i 0, i 1, eq_ix2 i⟩
  rw [Cert.ReferenceIdeal.Read.val_main_v53_apply, Cert.ReferenceIdeal.Read.val_main_v52_apply, Cert.ReferenceIdeal.Read.val_main_v44_apply]
  have hidx : Cert.ReferenceIdeal.Read.idx_main_v44 (Cert.ReferenceIdeal.Read.idx_main_v52 (ix2 e f)) = ix1 e :=
    funext fun a => Fin.ext (by match a with | ⟨0, _⟩ => rfl)
  rw [hidx]
  show Cert.KernelIdeal.Arrays.msgsOf _ _ (ix2 e f) = _
  unfold Cert.KernelIdeal.Arrays.msgsOf
  rw [show (ix2 (⟨((ix2 e f : Cert.KernelIdeal.S800000x128.Idx) 0).val, ((ix2 e f : Cert.KernelIdeal.S800000x128.Idx) 0).isLt⟩ : Fin 800000) (0 : Fin 1) : Cert.KernelIdeal.S800000x1.Idx) = ix2 e (0 : Fin 1) from rfl,
    Cert.ColumnLayout.shapeCast_a_a1_apply]
  rfl

/-- The aggregation is the same host operation on both sides. -/
theorem aggregate_eq : aggregate x0 (Cert.ReferenceIdeal.Read.val_main_v53 (F := Ideal) x0 x1 x2 x3 x4 x5)
    = Cert.ReferenceIdeal.Read.val_main_v56 (F := Ideal) x0 x1 x2 x3 x4 x5 := by
  unfold aggregate src Cert.ReferenceIdeal.Read.val_main_v56 Cert.ReferenceIdeal.Read.val_main_v55 Cert.ReferenceIdeal.Read.val_main_v54
    Cert.ReferenceIdeal.Read.val_main_cst_8 Cert.ReferenceIdeal.Read.val_main_v1 Cert.ReferenceIdeal.Read.val_main_v0
  rfl

/-- The logistic function of the padded aggregate, cut back, is the reference's quotient entry by entry. -/
theorem finish_eq : finish (Cert.ReferenceIdeal.Read.val_main_v56 (F := Ideal) x0 x1 x2 x3 x4 x5)
    = Cert.ReferenceIdeal.Read.val_main_v62 (F := Ideal) x0 x1 x2 x3 x4 x5 := by
  funext i
  obtain ⟨n, f, rfl⟩ : ∃ (n : Fin 50001) (f : Fin 128), i = ix2 n f := ⟨i 0, i 1, eq_ix2 i⟩
  rw [Cert.ReferenceIdeal.Read.val_main_v62_apply, Cert.ReferenceIdeal.Read.val_main_v61_apply, Cert.ReferenceIdeal.Read.val_main_cst_10_apply,
    Cert.ReferenceIdeal.Read.val_main_v60_apply, Cert.ReferenceIdeal.Read.val_main_v59_apply, Cert.ReferenceIdeal.Read.val_main_cst_9_apply,
    Cert.ReferenceIdeal.Read.val_main_v58_apply, Cert.ReferenceIdeal.Read.val_main_v57_apply]
  generalize Cert.ReferenceIdeal.Read.val_main_v56 (F := Ideal) x0 x1 x2 x3 x4 x5 = a
  unfold finish
  have hn : n.val < 50001 := n.isLt
  rw [extractStridedSlice_apply ![0, 0] _ Cert.KernelIdeal.Gen.slices_S50176x128_S50001x128_0_0 (ix2 n f)
    (ix2 (⟨n.val, by omega⟩ : Fin 50176) f) (fun b => by match b with | ⟨0, _⟩ => (show n.val = 0 + n.val; omega) | ⟨1, _⟩ => (show f.val = 0 + f.val; omega))]
  unfold Cert.KernelIdeal.Arrays.sigmoidOf
  rw [pad_apply_of_inside ![0, 0] ![175, 0] ![0, 0] a _ Cert.KernelIdeal.Gen.pads_S50001x128_S50176x128_01750_000 Cert.KernelIdeal.Gen.h_S_
    (ix2 (⟨n.val, by omega⟩ : Fin 50176) f) (ix2 n f) (fun b => by match b with | ⟨0, _⟩ => (show n.val = 0 + n.val * (0 + 1); omega) | ⟨1, _⟩ => (show f.val = 0 + f.val * (0 + 1); omega))]
  show Ideal.logistic (a (ix2 n f)) = _
  simp only [Ideal.ofBits_def, Ideal.ofBits_one_f32]
  rfl

/-- THE BRIDGE: the kernel program's result term is the reference's. -/
theorem result_eq (hE : InRange x0) : result x0 x1 x2 x3 x4 x5 = Cert.ReferenceIdeal.Read.val_main_v62 (F := Ideal) x0 x1 x2 x3 x4 x5 := by
  unfold result
  rw [scores_eq x0 x1 x2 x3 x4 x5 hE, normalised_eq, msgs_eq x0 x1 x2 x3 x4 x5 hE, aggregate_eq, finish_eq]

end Cert.Bridge

end
-- ==== Proof.lean ====
/-
  The certificate of a graph-attention layer: for 800000 edges over 50001 nodes, project the node embeddings, score
  every edge from its two endpoints' projected rows (leaky relu, minus one, exponential), normalise the scores per source
  node, add the score-weighted destination rows up per source node, and apply the logistic function.
  The kernel program projects the table ONCE (padded to 50176 rows) and gathers projected rows; the reference gathers
  table rows and projects the gathered rows. On the extended reals the two agree entry by entry because a gathered row's
  projection is the projection's gathered row, the 256-term attention sum is the sum of its two 128-term halves, and
  the logistic function is 1 / (1 + exp (−a)) by definition — no finiteness is used. What IS used is that every index
  word is a node number (0 ≤ edge < 50001, the precondition's last two conjuncts): outside that range the programs
  wrap and clamp an index against different row counts (50176 against 50001).
  Frames: the two kernel programs' are generated; the reference's is its generated run with the result dropped.
-/
import proofs.«120566_j3040836846450_1_alg».proof.Defs
import proofs.«120566_j3040836846450_1_alg».proof.Proof.Gen.Kernel
import proofs.«120566_j3040836846450_1_alg».proof.Proof.Gen.Kernel.Frame
import proofs.«120566_j3040836846450_1_alg».proof.Proof.Gen.KernelIdeal
import proofs.«120566_j3040836846450_1_alg».proof.Proof.Gen.KernelIdeal.Frame
import proofs.«120566_j3040836846450_1_alg».proof.Proof.Gen.ReferenceIdeal
import proofs.«120566_j3040836846450_1_alg».proof.Proof.Gen.ReferenceIdeal.Run
import proofs.«120566_j3040836846450_1_alg».proof.Proof.Gen.ReferenceIdeal.Read
import proofs.«120566_j3040836846450_1_alg».proof.Proof.Gen.Pre_finite_inputs
import proofs.«120566_j3040836846450_1_alg».proof.Proof.KernelRun
import proofs.«120566_j3040836846450_1_alg».proof.Proof.KernelResult
import proofs.«120566_j3040836846450_1_alg».proof.Proof.EdgeRows
import proofs.«120566_j3040836846450_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the result array at one function of the arguments: the kernel program's run ends
    at `Stages.result` of the launch contents, the reference's at its last stage, and under the precondition's index
    range the two are equal. -/
theorem algebraic : Cert.algebraic_KernelIdeal_ReferenceIdeal := by
  intro m ρ m' ρ' hpre hagree
  refine ⟨fun c => Cert.KernelIdeal.Stages.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundaries.result12 m ρ c), (h c).2⟩)
      (Cert.KernelIdeal.RunValue.run_result (F := Ideal) m ρ)
  · refine (θ_run Cert.ReferenceIdeal.defs _ _).mono (fun _ h c => ⟨?_, (h c).2⟩)
      (Cert.ReferenceIdeal.Value.run (F := Ideal) m' ρ')
    have hE : Cert.Spec.InRange (m ((c.tc : Thread Cert.KernelIdeal.nD Cert.KernelIdeal.τ).loc Cert.KernelIdeal.main_arg0)) :=
      Cert.EdgeRows.edge_range _ _ _ _ _ _ (hpre c)
    rw [(h c).1, Cert.ReferenceIdeal.Read.val_main_v62_eq, (hagree c).1, (hagree c).2.1, (hagree c).2.2.1, (hagree c).2.2.2.1,
      (hagree c).2.2.2.2.1, (hagree c).2.2.2.2.2]
    exact (Cert.Bridge.result_eq _ _ _ _ _ _ hE).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
